-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x256x1024 : Shape := ⟨3, ![128, 256, 1024]⟩
abbrev S1024x1024 : Shape := ⟨2, ![1024, 1024]⟩
abbrev S1024 : Shape := ⟨1, ![1024]⟩
abbrev S_ : Shape := ⟨0, ![]⟩

class Facts : Prop where
  bcast_S_S128x256x1024 : S_.BroadcastsInDim S128x256x1024 (![] : Fin 0 → Fin S128x256x1024.rank)
  reducesTo_S128x256x1024_S_d0_1_2 : S128x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x1024 .f32) (main_arg8 : FVec F S1024 .f32) (main_arg9 : FVec F S1024x1024 .f32) (main_arg10 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S128x256x1024 .f32) (main_arg1 : FVec F S128x256x1024 .f32) (main_arg2 : FVec F S128x256x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) : IVec S_ 1 :=
  let main_v0 : FVec F S128x256x1024 .f32 := Host.absf main_arg0
  let main_cst : FVec F S_ .f32 := constant S_ .f32 0x7F800000#32
  let main_v1 : FVec F S128x256x1024 .f32 := broadcastInDim S128x256x1024 ![] bcast_S_S128x256x1024 main_cst
  let main_v2 : IVec S128x256x1024 1 := cmpf .olt main_v0 main_v1
  let main_c : IVec S_ 1 := constantI S_ 1 1#1
  let main_v3 : IVec S_ 1 := (fun x v => Host.reduce IntOp.andi x v reducesTo_S128x256x1024_S_d0_1_2 h_S_) main_v2 main_c
  let main_v4 : FVec F S128x256x1024 .f32 := Host.absf main_arg1
  let main_cst_0 : FVec F S_ .f32 := constant S_ .f32 0x7F800000#32
  let main_v5 : FVec F S128x256x1024 .f32 := broadcastInDim S128x256x1024 ![] bcast_S_S128x256x1024 main_cst_0
  let main_v6 : IVec S128x256x1024 1 := cmpf .olt main_v4 main_v5
  let main_c_1 : IVec S_ 1 := constantI S_ 1 1#1
  let main_v7 : IVec S_ 1 := (fun x v => Host.reduce IntOp.andi x v reducesTo_S128x256x1024_S_d0_1_2 h_S_) main_v6 main_c_1
  let main_v8 : IVec S_ 1 := andi main_v3 main_v7
  let main_v9 : FVec F S128x256x1024 .f32 := Host.absf main_arg2
  let main_cst_2 : FVec F S_ .f32 := constant S_ .f32 0x7F800000#32
  let main_v10 : FVec F S128x256x1024 .f32 := broadcastInDim S128x256x1024 ![] bcast_S_S128x256x1024 main_cst_2
  let main_v11 : IVec S128x256x1024 1 := cmpf .olt main_v9 main_v10
  let main_c_3 : IVec S_ 1 := constantI S_ 1 1#1
  let main_v12 : IVec S_ 1 := (fun x v => Host.reduce IntOp.andi x v reducesTo_S128x256x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_v13 main_v16
-- ==== Kernel.lean ====
abbrev S128x256x1024 : Shape := ⟨3, ![128, 256, 1024]⟩
abbrev S1024x1024 : Shape := ⟨2, ![1024, 1024]⟩
abbrev S1024 : Shape := ⟨1, ![1024]⟩
abbrev S1x1024 : Shape := ⟨2, ![1, 1024]⟩
abbrev S128x1x1024 : Shape := ⟨3, ![128, 1, 1024]⟩
abbrev S4x256x1024 : Shape := ⟨3, ![4, 256, 1024]⟩
abbrev S4x1x1024 : Shape := ⟨3, ![4, 1, 1024]⟩
abbrev S4x1024 : Shape := ⟨2, ![4, 1024]⟩
abbrev S4x1x256 : Shape := ⟨3, ![4, 1, 256]⟩
abbrev S4x256x256 : Shape := ⟨3, ![4, 256, 256]⟩
abbrev S4x1 : Shape := ⟨2, ![4, 1]⟩
abbrev S4x1x1 : Shape := ⟨3, ![4, 1, 1]⟩
abbrev S128x1024 : Shape := ⟨2, ![128, 1024]⟩

abbrev nBuf : Space → Nat
  | .hbm => 26
  | .vmem => 16
  | .smem => 0
  | _ => 0

abbrev bufTy : (tb : Table) → Fin (tcTables nBuf tb) → BufTy
  | .hbm, ⟨0, _⟩ => ⟨S128x256x1024, .f32⟩
  | .hbm, ⟨1, _⟩ => ⟨S128x256x1024, .f32⟩
  | .hbm, ⟨2, _⟩ => ⟨S128x256x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .bf16⟩
  | .hbm, ⟨15, _⟩ => ⟨S1024x1024, .f32⟩
  | .hbm, ⟨16, _⟩ => ⟨S1024x1024, .bf16⟩
  | .hbm, ⟨17, _⟩ => ⟨S1024x1024, .f32⟩
  | .hbm, ⟨18, _⟩ => ⟨S1024x1024, .bf16⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S128x1x1024, .f32⟩
  | .hbm, ⟨24, _⟩ => ⟨S128x1x1024, .f32⟩
  | .hbm, ⟨25, _⟩ => ⟨S128x1024, .f32⟩
  | .local _ .vmem, ⟨0, _⟩ => ⟨S4x256x1024, .f32⟩
  | .local _ .vmem, ⟨1, _⟩ => ⟨S4x256x1024, .f32⟩
  | .local _ .vmem, ⟨2, _⟩ => ⟨S4x256x1024, .f32⟩
  | .local _ .vmem, ⟨3, _⟩ => ⟨S4x256x1024, .f32⟩
  | .local _ .vmem, ⟨4, _⟩ => ⟨S4x1x1024, .f32⟩
  | .local _ .vmem, ⟨5, _⟩ => ⟨S4x1x1024, .f32⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S1x1024, .f32⟩
  | .local _ .vmem, ⟨10, _⟩ => ⟨S1024x1024, .bf16⟩
  | .local _ .vmem, ⟨11, _⟩ => ⟨S1x1024, .f32⟩
  | .local _ .vmem, ⟨12, _⟩ => ⟨S1024x1024, .bf16⟩
  | .local _ .vmem, ⟨13, _⟩ => ⟨S1x1024, .f32⟩
  | .local _ .vmem, ⟨14, _⟩ => ⟨S4x1x1024, .f32⟩
  | .local _ .vmem, ⟨15, _⟩ => ⟨S4x1x1024, .f32⟩
  | _, _ => ⟨S128x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4x1x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  transposes_S1024x1024_S1024x1024_1_0 : S1024x1024.Transposes [1, 0] S1024x1024
  bitsLt_bf16_f32 : FTy.bits .bf16 < FTy.bits .f32
  shapeCasts_S1024_S1x1024 : S1024.ShapeCasts S1x1024
  slices_S128x256x1024_S128x1x1024_0_0_0 : S128x256x1024.Slices ![0, 0, 0] S128x1x1024
  inb_S4x256x1024_S4x256x1024_0_0_0 : ∀ a, (![0, 0, 0] : Fin 3 → Nat) a + S4x256x1024.size a ≤ S4x256x1024.size a
  h_S4x256x1024 : 0 < S4x256x1024.numel
  shapeCasts_S4x256x1024_S1024x1024 : S4x256x1024.ShapeCasts S1024x1024
  inb_S4x1x1024_S4x1x1024_0_0_0 : ∀ a, (![0, 0, 0] : Fin 3 → Nat) a + S4x1x1024.size a ≤ S4x1x1024.size a
  h_S4x1x1024 : 0 < S4x1x1024.numel
  shapeCasts_S4x1x1024_S4x1x1024 : S4x1x1024.ShapeCasts S4x1x1024
  shapeCasts_S4x1x1024_S4x1024 : S4x1x1024.ShapeCasts S4x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S1024x1024_S4x256x1024 : S1024x1024.ShapeCasts S4x256x1024
  broadcasts_S1x1024_S4x1024 : S1x1024.Broadcasts S4x1024
  shapeCasts_S4x1024_S4x1x1024 : S4x1024.ShapeCasts S4x1x1024
  reduces_S4x1x256_S4x1 : S4x1x256.Reduces [2] S4x1
  shapeCasts_S4x1_S4x1x1 : S4x1.ShapeCasts S4x1x1
  broadcasts_S4x1x1_S4x1x256 : S4x1x1.Broadcasts S4x1x256
  shapeCasts_S128x1x1024_S128x1024 : S128x1x1024.ShapeCasts S128x1024
  dot_S1024x1024_S1024x1024_S1024x1024_1_0_0_1_n_n_wf : DotDims.WF S1024x1024 S1024x1024 S1024x1024 [1] [0] [0] [1] [] []
  dot_S4x1024_S1024x1024_S4x1024_1_0_0_1_n_n_wf : DotDims.WF S4x1024 S1024x1024 S4x1024 [1] [0] [0] [1] [] []
  dot_S4x1x1024_S4x256x1024_S4x1x256_2_2_1_1_0_0_wf : DotDims.WF S4x1x1024 S4x256x1024 S4x1x256 [2] [2] [1] [1] [0] [0]
  dot_S4x256x1024_S4x256x1024_S4x256x256_2_2_1_1_0_0_wf : DotDims.WF S4x256x1024 S4x256x1024 S4x256x256 [2] [2] [1] [1] [0] [0]
  dot_S4x1x256_S4x256x256_S4x1x256_2_1_1_2_0_0_wf : DotDims.WF S4x1x256 S4x256x256 S4x1x256 [2] [1] [1] [2] [0] [0]
  dot_S4x1x256_S4x256x1024_S4x1x1024_2_1_1_2_0_0_wf : DotDims.WF S4x1x256 S4x256x1024 S4x1x1024 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x256x1024.size a ≤ S128x256x1024.size a
  hwx0_0 : ∀ i : grid0.Coords, EltTy.bits .f32 = 32 ∨ (Rect.block (s := S128x256x1024) S4x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x256x1024.size a ≤ S128x256x1024.size a
  hwx0_1 : ∀ i : grid0.Coords, EltTy.bits .f32 = 32 ∨ (Rect.block (s := S128x256x1024) S4x256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x1x1024.size a ≤ S128x1x1024.size a
  hwx0_2 : ∀ i : grid0.Coords, EltTy.bits .f32 = 32 ∨ (Rect.block (s := S128x1x1024) S4x1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x1024.size a ≤ S1024x1024.size a
  hwx0_9 : ∀ i : grid0.Coords, EltTy.bits .bf16 = 32 ∨ (Rect.block (s := S1024x1024) S1024x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x1024.size a
  hwx0_10 : ∀ i : grid0.Coords, EltTy.bits .f32 = 32 ∨ (Rect.block (s := S1x1024) S1x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S4x1x1024.size a ≤ S128x1x1024.size a
  hwx0_11 : ∀ i : grid0.Coords, EltTy.bits .f32 = 32 ∨ (Rect.block (s := S128x1x1024) S4x1x1024.size (cc0_transform_11 i) (hinb0_11 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S4x1024_S1024x1024_S4x1024_1_0_0_1_n_n : DotDims S4x1024 S1024x1024 S4x1024 where
  lhsContracting := [1]
  rhsContracting := [0]
  lhsNonContracting := [0]
  rhsNonContracting := [1]
  lhsBatch := []
  rhsBatch := []
  wf := dot_S4x1024_S1024x1024_S4x1024_1_0_0_1_n_n_wf
def dot_S4x1x1024_S4x256x1024_S4x1x256_2_2_1_1_0_0 : DotDims S4x1x1024 S4x256x1024 S4x1x256 where
  lhsContracting := [2]
  rhsContracting := [2]
  lhsNonContracting := [1]
  rhsNonContracting := [1]
  lhsBatch := [0]
  rhsBatch := [0]
  wf := dot_S4x1x1024_S4x256x1024_S4x1x256_2_2_1_1_0_0_wf
def dot_S4x256x1024_S4x256x1024_S4x256x256_2_2_1_1_0_0 : DotDims S4x256x1024 S4x256x1024 S4x256x256 where
  lhsContracting := [2]
  rhsContracting := [2]
  lhsNonContracting := [1]
  rhsNonContracting := [1]
  lhsBatch := [0]
  rhsBatch := [0]
  wf := dot_S4x256x1024_S4x256x1024_S4x256x256_2_2_1_1_0_0_wf
def dot_S4x1x256_S4x256x256_S4x1x256_2_1_1_2_0_0 : DotDims S4x1x256 S4x256x256 S4x1x256 where
  lhsContracting := [2]
  rhsContracting := [1]
  lhsNonContracting := [1]
  rhsNonContracting := [2]
  lhsBatch := [0]
  rhsBatch := [0]
  wf := dot_S4x1x256_S4x256x256_S4x1x256_2_1_1_2_0_0_wf
def dot_S4x1x256_S4x256x1024_S4x1x1024_2_1_1_2_0_0 : DotDims S4x1x256 S4x256x1024 S4x1x1024 where
  lhsContracting := [2]
  rhsContracting := [1]
  lhsNonContracting := [1]
  rhsNonContracting := [2]
  lhsBatch := [0]
  rhsBatch := [0]
  wf := dot_S4x1x256_S4x256x1024_S4x1x1024_2_1_1_2_0_0_wf

abbrev win0_0 : Pipeline.Window sig grid0 :=
  Pipeline.Window.ofSpec (Memref.whole main_arg1) S4x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4x256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S4x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v10) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S1024x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v11) S1x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v13) S4x1x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S128x256x1024 : Shape := ⟨3, ![128, 256, 1024]⟩
abbrev S1024x1024 : Shape := ⟨2, ![1024, 1024]⟩
abbrev S1024 : Shape := ⟨1, ![1024]⟩
abbrev S1x1x1024 : Shape := ⟨3, ![1, 1, 1024]⟩
abbrev S128x256x256 : Shape := ⟨3, ![128, 256, 256]⟩
abbrev S_ : Shape := ⟨0, ![]⟩
abbrev S128x256 : Shape := ⟨2, ![128, 256]⟩
abbrev S128x256x1 : Shape := ⟨3, ![128, 256, 1]⟩
abbrev S128x1x1024 : Shape := ⟨3, ![128, 1, 1024]⟩
abbrev S128x1024 : Shape := ⟨2, ![128, 1024]⟩

abbrev nBuf : Space → Nat
  | .hbm => 53
  | .vmem => 0
  | .smem => 0
  | _ => 0

abbrev bufTy : (tb : Table) → Fin (tcTables nBuf tb) → BufTy
  | .hbm, ⟨0, _⟩ => ⟨S128x256x1024, .f32⟩
  | .hbm, ⟨1, _⟩ => ⟨S128x256x1024, .f32⟩
  | .hbm, ⟨2, _⟩ => ⟨S128x256x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S128x256x1024, .f32⟩
  | .hbm, ⟨12, _⟩ => ⟨S1x1x1024, .f32⟩
  | .hbm, ⟨13, _⟩ => ⟨S128x256x1024, .f32⟩
  | .hbm, ⟨14, _⟩ => ⟨S128x256x1024, .f32⟩
  | .hbm, ⟨15, _⟩ => ⟨S128x256x1024, .f32⟩
  | .hbm, ⟨16, _⟩ => ⟨S1x1x1024, .f32⟩
  | .hbm, ⟨17, _⟩ => ⟨S128x256x1024, .f32⟩
  | .hbm, ⟨18, _⟩ => ⟨S128x256x1024, .f32⟩
  | .hbm, ⟨19, _⟩ => ⟨S128x256x1024, .f32⟩
  | .hbm, ⟨20, _⟩ => ⟨S1x1x1024, .f32⟩
  | .hbm, ⟨21, _⟩ => ⟨S128x256x1024, .f32⟩
  | .hbm, ⟨22, _⟩ => ⟨S128x256x1024, .f32⟩
  | .hbm, ⟨23, _⟩ => ⟨S128x256x1024, .f32⟩
  | .hbm, ⟨24, _⟩ => ⟨S1x1x1024, .f32⟩
  | .hbm, ⟨25, _⟩ => ⟨S128x256x1024, .f32⟩
  | .hbm, ⟨26, _⟩ => ⟨S128x256x1024, .f32⟩
  | .hbm, ⟨27, _⟩ => ⟨S128x256x256, .f32⟩
  | .hbm, ⟨28, _⟩ => ⟨S_, .f32⟩
  | .hbm, ⟨29, _⟩ => ⟨S128x256x256, .f32⟩
  | .hbm, ⟨30, _⟩ => ⟨S128x256x256, .f32⟩
  | .hbm, ⟨31, _⟩ => ⟨S128x256x256, .f32⟩
  | .hbm, ⟨32, _⟩ => ⟨S_, .f32⟩
  | .hbm, ⟨33, _⟩ => ⟨S128x256x256, .f32⟩
  | .hbm, ⟨34, _⟩ => ⟨S128x256x256, .f32⟩
  | .hbm, ⟨35, _⟩ => ⟨S128x256x256, .f32⟩
  | .hbm, ⟨36, _⟩ => ⟨S_, .f32⟩
  | .hbm, ⟨37, _⟩ => ⟨S128x256, .f32⟩
  | .hbm, ⟨38, _⟩ => ⟨S_, .f32⟩
  | .hbm, ⟨39, _⟩ => ⟨S128x256, .f32⟩
  | .hbm, ⟨40, _⟩ => ⟨S128x256, .f32⟩
  | .hbm, ⟨41, _⟩ => ⟨S128x256x1, .f32⟩
  | .hbm, ⟨42, _⟩ => ⟨S128x256x256, .f32⟩
  | .hbm, ⟨43, _⟩ => ⟨S128x256x256, .f32⟩
  | .hbm, ⟨44, _⟩ => ⟨S128x256x256, .f32⟩
  | .hbm, ⟨45, _⟩ => ⟨S_, .f32⟩
  | .hbm, ⟨46, _⟩ => ⟨S128x256, .f32⟩
  | .hbm, ⟨47, _⟩ => ⟨S128x256x1, .f32⟩
  | .hbm, ⟨48, _⟩ => ⟨S128x256x256, .f32⟩
  | .hbm, ⟨49, _⟩ => ⟨S128x256x256, .f32⟩
  | .hbm, ⟨50, _⟩ => ⟨S128x256x1024, .f32⟩
  | .hbm, ⟨51, _⟩ => ⟨S128x1x1024, .f32⟩
  | .hbm, ⟨52, _⟩ => ⟨S128x1024, .f32⟩
  | _, _ => ⟨S128x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_0 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_1 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_3 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S128x256x1024_0_1_2 : S1x1x1024.BroadcastsInDim S128x256x1024 (![0, 1, 2] : Fin 3 → Fin S128x256x1024.rank)
  bcast_S_S128x256x256 : S_.BroadcastsInDim S128x256x256 (![] : Fin 0 → Fin S128x256x256.rank)
  reducesTo_S128x256x256_S128x256_d2 : S128x256x256.ReducesTo [2] S128x256
  h_S_ : 0 < S_.numel
  bcast_S_S128x256 : S_.BroadcastsInDim S128x256 (![] : Fin 0 → Fin S128x256.rank)
  bcast_S128x256_S128x256x1_0_1 : S128x256.BroadcastsInDim S128x256x1 (![0, 1] : Fin 2 → Fin S128x256x1.rank)
  bcast_S128x256x1_S128x256x256_0_1_2 : S128x256x1.BroadcastsInDim S128x256x256 (![0, 1, 2] : Fin 3 → Fin S128x256x256.rank)
  slices_S128x256x1024_S128x1x1024_0_0_0 : S128x256x1024.Slices ![0, 0, 0] S128x1x1024
  shapeCasts_S128x1x1024_S128x1024 : S128x1x1024.ShapeCasts S128x1024
  dot_S128x256x1024_S1024x1024_S128x256x1024_2_1_01_0_n_n_wf : DotDims.WF S128x256x1024 S1024x1024 S128x256x1024 [2] [1] [0, 1] [0] [] []
  dot_S128x256x1024_S128x256x1024_S128x256x256_2_2_1_1_0_0_wf : DotDims.WF S128x256x1024 S128x256x1024 S128x256x256 [2] [2] [1] [1] [0] [0]
  dot_S128x256x256_S128x256x256_S128x256x256_2_1_1_2_0_0_wf : DotDims.WF S128x256x256 S128x256x256 S128x256x256 [2] [1] [1] [2] [0] [0]
  dot_S128x256x256_S128x256x1024_S128x256x1024_2_1_1_2_0_0_wf : DotDims.WF S128x256x256 S128x256x1024 S128x256x1024 [2] [1] [1] [2] [0] [0]

variable [Facts₀]

def dot_S128x256x1024_S1024x1024_S128x256x1024_2_1_01_0_n_n : DotDims S128x256x1024 S1024x1024 S128x256x1024 where
  lhsContracting := [2]
  rhsContracting := [1]
  lhsNonContracting := [0, 1]
  rhsNonContracting := [0]
  lhsBatch := []
  rhsBatch := []
  wf := dot_S128x256x1024_S1024x1024_S128x256x1024_2_1_01_0_n_n_wf
def dot_S128x256x1024_S128x256x1024_S128x256x256_2_2_1_1_0_0 : DotDims S128x256x1024 S128x256x1024 S128x256x256 where
  lhsContracting := [2]
  rhsContracting := [2]
  lhsNonContracting := [1]
  rhsNonContracting := [1]
  lhsBatch := [0]
  rhsBatch := [0]
  wf := dot_S128x256x1024_S128x256x1024_S128x256x256_2_2_1_1_0_0_wf
def dot_S128x256x256_S128x256x256_S128x256x256_2_1_1_2_0_0 : DotDims S128x256x256 S128x256x256 S128x256x256 where
  lhsContracting := [2]
  rhsContracting := [1]
  lhsNonContracting := [1]
  rhsNonContracting := [2]
  lhsBatch := [0]
  rhsBatch := [0]
  wf := dot_S128x256x256_S128x256x256_S128x256x256_2_1_1_2_0_0_wf
def dot_S128x256x256_S128x256x1024_S128x256x1024_2_1_1_2_0_0 : DotDims S128x256x256 S128x256x1024 S128x256x1024 where
  lhsContracting := [2]
  rhsContracting := [1]
  lhsNonContracting := [1]
  rhsNonContracting := [2]
  lhsBatch := [0]
  rhsBatch := [0]
  wf := dot_S128x256x256_S128x256x1024_S128x256x1024_2_1_1_2_0_0_wf

class Facts : Prop extends Facts₀ where

variable [Facts]
-- ==== Proof.RowAttention.lean ====
/-
  The mathematics both programs compute, for ONE batch element, over the extended reals.

  Inputs of a batch element: a caption matrix and a target matrix (256 rows of width 1024), and the reference
  sequence's FIRST row (width 1024); four linear layers `x ↦ x · Wᵀ + b` (weights indexed [out, in]).
  With  K = lin_k(caption),  T = lin_t(target),  V = lin_v(target)  and  q = lin_q(first reference row):
    a c     = (∑ k, q k · K c k) · s            (the first attention row against the captions)
    B c t   = (∑ k, K c k · T t k) · s          (captions against targets)
    sc t    = ∑ c, a c · B c t                  (the row of scores)
    p       = softmax sc                        (exp (sc t − max sc) / ∑ u, exp (sc u − max sc))
    out d   = ∑ t, p t · V t d
  with `s` the float word 0x3D000000 (1/32) and the maximum taken as the fold of `max` from the float word of −∞.
  Only row 0 of the result of the three-way attention is returned, and a row of a softmax over the last axis
  depends on that row of the scores alone: so the row above IS row 0 of the full computation.
-/
import Idealize.ShloMosaic.PureOps.Ideal
import Idealize.ShloMosaic.PureOps.Ideal.Laws

noncomputable section

namespace Cert.RowAttn

open Idealize.ShloMosaic

/-- A sequence of 256 rows of width 1024. -/
abbrev Mat := Fin 256 → Fin 1024 → EReal
/-- One row of width 1024. -/
abbrev Row := Fin 1024 → EReal
/-- A weight matrix, indexed [out, in]. -/
abbrev Wgt := Fin 1024 → Fin 1024 → EReal

/-- The attention scale, the float word of 1/32 (both programs carry this same word). -/
def scale : EReal := Ideal.ofBits .f32 0x3D000000#32
/-- The float word of −∞, from which a row maximum is folded. -/
def negInf : EReal := Ideal.ofBits .f32 0xFF800000#32

/-- A linear layer on one row: `(x · Wᵀ + b) e = (∑ k, x k · W e k) + b e`. -/
def lin (w : Wgt) (b : Row) (x : Row) : Row := fun e => (∑ k : Fin 1024, x k * w e k) + b e

/-- The query row against every caption key, scaled. -/
def attA (q : Row) (kx : Mat) : Fin 256 → EReal := fun c => (∑ k : Fin 1024, q k * kx c k) * scale

/-- Every caption key against every target key, scaled. -/
def attB (kx kt : Mat) : Fin 256 → Fin 256 → EReal := fun c t => (∑ k : Fin 1024, kx c k * kt t k) * scale

/-- The row of scores: the first attention row times the second attention matrix. -/
def score (a : Fin 256 → EReal) (B : Fin 256 → Fin 256 → EReal) : Fin 256 → EReal :=
  fun t => ∑ c : Fin 256, a c * B c t

/-- The maximum of a row, folded from −∞. -/
def rowMax (s : Fin 256 → EReal) : EReal := (Finset.univ : Finset (Fin 256)).fold max negInf s

/-- `exp (s t − max s)`. -/
def expShift (s : Fin 256 → EReal) : Fin 256 → EReal := fun t => Ideal.exp (s t - rowMax s)

/-- The softmax of a row. -/
def softmax (s : Fin 256 → EReal) : Fin 256 → EReal :=
  fun t => Ideal.div (expShift s t) (∑ u : Fin 256, expShift s u)

/-- A row of weights mixing the value rows. -/
def mix (p : Fin 256 → EReal) (v : Mat) : Row := fun d => ∑ t : Fin 256, p t * v t d

/-- Row 0 of the three-way attention of one batch element. -/
def rowAttn (cap tar : Mat) (r : Row) (wq : Wgt) (bq : Row) (wk : Wgt) (bk : Row) (wt : Wgt) (bt : Row)
    (wv : Wgt) (bv : Row) : Row :=
  mix (softmax (score (attA (lin wq bq r) (fun l => lin wk bk (cap l)))
                      (attB (fun l => lin wk bk (cap l)) (fun l => lin wt bt (tar l)))))
      (fun l => lin wv bv (tar l))

/-- A maximum folded from a start value is at least the start value: taking the maximum with it again changes nothing. -/
theorem max_start_fold (b : EReal) (s : Fin 256 → EReal) :
    max b ((Finset.univ : Finset (Fin 256)).fold max b s) = (Finset.univ : Finset (Fin 256)).fold max b s :=
  max_eq_right ((Finset.le_fold_max b).mpr (Or.inl le_rfl))

end Cert.RowAttn

end
-- ==== Proof.Result.lean ====
/-
  The result array both programs end with, as ONE function of the eleven argument arrays: entry (b, d) is column d of the
  row attention (`Cert.RowAttn.rowAttn`) of batch element b — its caption rows, its target rows and its FIRST reference
  row, through the four linear layers (weights indexed [out, in], biases as vectors).
-/
import proofs.«100315_j51367808860581_2_alg».proof.Proof.RowAttention
import Idealize.ShloMosaic.Lib.ValueIdx

noncomputable section

namespace Cert.RowAttn

open Idealize.ShloMosaic Idealize.ShloMosaic.ValueIdx

/-- A [128, 256, 1024] array, a [1024, 1024] weight, a [1024] bias, over the extended reals. -/
abbrev Arr3 := (⟨3, ![128, 256, 1024]⟩ : Shape).Idx → EReal
abbrev Arr2 := (⟨2, ![1024, 1024]⟩ : Shape).Idx → EReal
abbrev Arr1 := (⟨1, ![1024]⟩ : Shape).Idx → EReal

/-- The output row of batch element `b`: arguments in the programs' order — reference, caption and target embeddings,
    then weight and bias of the query, caption-key, target-key and value layers. -/
def batchRow (a0 a1 a2 : Arr3) (a3 : Arr2) (a4 : Arr1) (a5 : Arr2) (a6 : Arr1) (a7 : Arr2) (a8 : Arr1) (a9 : Arr2) (a10 : Arr1)
    (b : Fin 128) : Row :=
  rowAttn (fun l k => a1 (ix3 b l k)) (fun l k => a2 (ix3 b l k)) (fun k => a0 (ix3 b (0 : Fin 256) k))
    (fun e k => a3 (ix2 e k)) (fun e => a4 (ix1 e)) (fun e k => a5 (ix2 e k)) (fun e => a6 (ix1 e))
    (fun e k => a7 (ix2 e k)) (fun e => a8 (ix1 e)) (fun e k => a9 (ix2 e k)) (fun e => a10 (ix1 e))

/-- The [128, 1024] result array. -/
def result (a0 a1 a2 : Arr3) (a3 : Arr2) (a4 : Arr1) (a5 : Arr2) (a6 : Arr1) (a7 : Arr2) (a8 : Arr1) (a9 : Arr2) (a10 : Arr1) :
    (⟨2, ![128, 1024]⟩ : Shape).Idx → EReal :=
  fun i => batchRow a0 a1 a2 a3 a4 a5 a6 a7 a8 a9 a10 ⟨(i 0).val, (i 0).isLt⟩ ⟨(i 1).val, (i 1).isLt⟩

/-- At an index written by coordinates. -/
theorem result_ix2 (a0 a1 a2 : Arr3) (a3 : Arr2) (a4 : Arr1) (a5 : Arr2) (a6 : Arr1) (a7 : Arr2) (a8 : Arr1) (a9 : Arr2) (a10 : Arr1)
    (b : Fin 128) (d : Fin 1024) :
    result a0 a1 a2 a3 a4 a5 a6 a7 a8 a9 a10 (ix2 b d) = batchRow a0 a1 a2 a3 a4 a5 a6 a7 a8 a9 a10 b d := rfl

end Cert.RowAttn

end
-- ==== Proof.ReferenceRow.lean ====
/-
  The reference program computes, for batch element b and output column d, row 0 of the three-way attention:
  read operation by operation at an index, its value is the same tree of sums as `Cert.RowAttn.rowAttn`.
  Each lemma below reads one stage of the reference at an index written by coordinates.
-/
import proofs.«100315_j51367808860581_2_alg».proof.Proof.Gen.ReferenceIdeal.Read
import proofs.«100315_j51367808860581_2_alg».proof.Proof.RowAttention
import Idealize.ShloMosaic.Lib.ValueIdx
import Idealize.ShloMosaic.PureOps.Ideal.Laws
import Idealize.ShloMosaic.PureOps.Reduce

noncomputable section

namespace Cert.RefRow

open Cert.ReferenceIdeal Cert.ReferenceIdeal.Read Idealize.ShloMosaic Idealize.ShloMosaic.ValueIdx

/-- Three-axis arrays [128, 256, 1024], weight matrices [1024, 1024], bias rows [1024]. -/
abbrev A3 := (⟨S128x256x1024, .f32⟩ : BufTy).Contents (Elt Ideal)
abbrev W2 := (⟨S1024x1024, .f32⟩ : BufTy).Contents (Elt Ideal)
abbrev B1 := (⟨S1024, .f32⟩ : BufTy).Contents (Elt Ideal)

/-- A weight array as a matrix indexed [out, in]. -/
abbrev wgt (w : W2) : RowAttn.Wgt := fun e k => w (ix2 e k)
/-- A bias array as a row. -/
abbrev bias (c : B1) : RowAttn.Row := fun e => c (ix1 e)
/-- Row l of batch element b of a three-axis array. -/
abbrev row (x : A3) (b : Fin 128) (l : Fin 256) : RowAttn.Row := fun k => x (ix3 b l k)

/-- A linear layer applied to every row of batch element b. -/
abbrev layer (x : A3) (w : W2) (c : B1) (b : Fin 128) : RowAttn.Mat := fun l => RowAttn.lin (wgt w) (bias c) (row x b l)

/-! ## The four linear layers: element (b, l, e) of `x · Wᵀ + c` is the layer applied to row l of batch element b -/

theorem lidx_v0 (b : Fin 128) (l : Fin 256) (e k : Fin 1024) : lidx_main_v0 (ix3 b l e) k = ix3 b l k :=
  funext fun a => by match a with | ⟨0, _⟩ => rfl | ⟨1, _⟩ => rfl | ⟨2, _⟩ => rfl
theorem ridx_v0 (b : Fin 128) (l : Fin 256) (e k : Fin 1024) : ridx_main_v0 (ix3 b l e) k = ix2 e k :=
  funext fun a => by match a with | ⟨0, _⟩ => rfl | ⟨1, _⟩ => rfl
theorem bidx_v1 (b : Fin 128) (l : Fin 256) (e : Fin 1024) : idx_main_v1 (idx_main_v2 (ix3 b l e)) = ix1 e :=
  funext fun a => by match a with | ⟨0, _⟩ => rfl
/-- The query layer. -/
theorem lin_v3 (x : A3) (w : W2) (c : B1) (b : Fin 128) (l : Fin 256) (e : Fin 1024) :
    val_main_v3 (F := Ideal) x w c (ix3 b l e) = layer x w c b l e := by
  rw [val_main_v3_apply, val_main_v0_apply, val_main_v2_apply, val_main_v1_apply]
  show (∑ k : Fin 1024, x (lidx_main_v0 (ix3 b l e) k) * w (ridx_main_v0 (ix3 b l e) k)) + c (idx_main_v1 (idx_main_v2 (ix3 b l e)))
      = (∑ k : Fin 1024, x (ix3 b l k) * w (ix2 e k)) + c (ix1 e)
  simp only [lidx_v0, ridx_v0, bidx_v1]

theorem lidx_v4 (b : Fin 128) (l : Fin 256) (e k : Fin 1024) : lidx_main_v4 (ix3 b l e) k = ix3 b l k :=
  funext fun a => by match a with | ⟨0, _⟩ => rfl | ⟨1, _⟩ => rfl | ⟨2, _⟩ => rfl
theorem ridx_v4 (b : Fin 128) (l : Fin 256) (e k : Fin 1024) : ridx_main_v4 (ix3 b l e) k = ix2 e k :=
  funext fun a => by match a with | ⟨0, _⟩ => rfl | ⟨1, _⟩ => rfl
theorem bidx_v5 (b : Fin 128) (l : Fin 256) (e : Fin 1024) : idx_main_v5 (idx_main_v6 (ix3 b l e)) = ix1 e :=
  funext fun a => by match a with | ⟨0, _⟩ => rfl
/-- The caption-key layer. -/
theorem lin_v7 (x : A3) (w : W2) (c : B1) (b : Fin 128) (l : Fin 256) (e : Fin 1024) :
    val_main_v7 (F := Ideal) x w c (ix3 b l e) = layer x w c b l e := by
  rw [val_main_v7_apply, val_main_v4_apply, val_main_v6_apply, val_main_v5_apply]
  show (∑ k : Fin 1024, x (lidx_main_v4 (ix3 b l e) k) * w (ridx_main_v4 (ix3 b l e) k)) + c (idx_main_v5 (idx_main_v6 (ix3 b l e)))
      = (∑ k : Fin 1024, x (ix3 b l k) * w (ix2 e k)) + c (ix1 e)
  simp only [lidx_v4, ridx_v4, bidx_v5]

theorem lidx_v8 (b : Fin 128) (l : Fin 256) (e k : Fin 1024) : lidx_main_v8 (ix3 b l e) k = ix3 b l k :=
  funext fun a => by match a with | ⟨0, _⟩ => rfl | ⟨1, _⟩ => rfl | ⟨2, _⟩ => rfl
theorem ridx_v8 (b : Fin 128) (l : Fin 256) (e k : Fin 1024) : ridx_main_v8 (ix3 b l e) k = ix2 e k :=
  funext fun a => by match a with | ⟨0, _⟩ => rfl | ⟨1, _⟩ => rfl
theorem bidx_v9 (b : Fin 128) (l : Fin 256) (e : Fin 1024) : idx_main_v9 (idx_main_v10 (ix3 b l e)) = ix1 e :=
  funext fun a => by match a with | ⟨0, _⟩ => rfl
/-- The target-key layer. -/
theorem lin_v11 (x : A3) (w : W2) (c : B1) (b : Fin 128) (l : Fin 256) (e : Fin 1024) :
    val_main_v11 (F := Ideal) x w c (ix3 b l e) = layer x w c b l e := by
  rw [val_main_v11_apply, val_main_v8_apply, val_main_v10_apply, val_main_v9_apply]
  show (∑ k : Fin 1024, x (lidx_main_v8 (ix3 b l e) k) * w (ridx_main_v8 (ix3 b l e) k)) + c (idx_main_v9 (idx_main_v10 (ix3 b l e)))
      = (∑ k : Fin 1024, x (ix3 b l k) * w (ix2 e k)) + c (ix1 e)
  simp only [lidx_v8, ridx_v8, bidx_v9]

theorem lidx_v12 (b : Fin 128) (l : Fin 256) (e k : Fin 1024) : lidx_main_v12 (ix3 b l e) k = ix3 b l k :=
  funext fun a => by match a with | ⟨0, _⟩ => rfl | ⟨1, _⟩ => rfl | ⟨2, _⟩ => rfl
theorem ridx_v12 (b : Fin 128) (l : Fin 256) (e k : Fin 1024) : ridx_main_v12 (ix3 b l e) k = ix2 e k :=
  funext fun a => by match a with | ⟨0, _⟩ => rfl | ⟨1, _⟩ => rfl
theorem bidx_v13 (b : Fin 128) (l : Fin 256) (e : Fin 1024) : idx_main_v13 (idx_main_v14 (ix3 b l e)) = ix1 e :=
  funext fun a => by match a with | ⟨0, _⟩ => rfl
/-- The value layer. -/
theorem lin_v15 (x : A3) (w : W2) (c : B1) (b : Fin 128) (l : Fin 256) (e : Fin 1024) :
    val_main_v15 (F := Ideal) x w c (ix3 b l e) = layer x w c b l e := by
  rw [val_main_v15_apply, val_main_v12_apply, val_main_v14_apply, val_main_v13_apply]
  show (∑ k : Fin 1024, x (lidx_main_v12 (ix3 b l e) k) * w (ridx_main_v12 (ix3 b l e) k)) + c (idx_main_v13 (idx_main_v14 (ix3 b l e)))
      = (∑ k : Fin 1024, x (ix3 b l k) * w (ix2 e k)) + c (ix1 e)
  simp only [lidx_v12, ridx_v12, bidx_v13]

/-! ## The two scaled attention products and the scores -/

theorem lidx_v16 (b : Fin 128) (r c : Fin 256) (k : Fin 1024) : lidx_main_v16 (ix3 b r c) k = ix3 b r k :=
  funext fun a => by match a with | ⟨0, _⟩ => rfl | ⟨1, _⟩ => rfl | ⟨2, _⟩ => rfl
theorem ridx_v16 (b : Fin 128) (r c : Fin 256) (k : Fin 1024) : ridx_main_v16 (ix3 b r c) k = ix3 b c k :=
  funext fun a => by match a with | ⟨0, _⟩ => rfl | ⟨1, _⟩ => rfl | ⟨2, _⟩ => rfl
/-- Queries against caption keys, scaled: element (b, r, c). -/
theorem att_v18 (x0 x1 : A3) (x3 : W2) (x4 : B1) (x5 : W2) (x6 : B1) (b : Fin 128) (r c : Fin 256) :
    val_main_v18 (F := Ideal) x0 x1 x3 x4 x5 x6 (ix3 b r c)
      = RowAttn.attA (layer x0 x3 x4 b r) (layer x1 x5 x6 b) c := by
  rw [val_main_v18_apply, val_main_v16_apply, val_main_v17_apply, val_main_cst_apply]
  show (∑ k : Fin 1024, val_main_v3 (F := Ideal) x0 x3 x4 (lidx_main_v16 (ix3 b r c) k)
          * val_main_v7 (F := Ideal) x1 x5 x6 (ridx_main_v16 (ix3 b r c) k)) * Ideal.ofBits .f32 0x3D000000#32
      = (∑ k : Fin 1024, layer x0 x3 x4 b r k * layer x1 x5 x6 b c k) * RowAttn.scale
  simp only [lidx_v16, ridx_v16, lin_v3, lin_v7]
  rfl

theorem lidx_v19 (b : Fin 128) (c t : Fin 256) (k : Fin 1024) : lidx_main_v19 (ix3 b c t) k = ix3 b c k :=
  funext fun a => by match a with | ⟨0, _⟩ => rfl | ⟨1, _⟩ => rfl | ⟨2, _⟩ => rfl
theorem ridx_v19 (b : Fin 128) (c t : Fin 256) (k : Fin 1024) : ridx_main_v19 (ix3 b c t) k = ix3 b t k :=
  funext fun a => by match a with | ⟨0, _⟩ => rfl | ⟨1, _⟩ => rfl | ⟨2, _⟩ => rfl
/-- Caption keys against target keys, scaled: element (b, c, t). -/
theorem att_v21 (x1 x2 : A3) (x5 : W2) (x6 : B1) (x7 : W2) (x8 : B1) (b : Fin 128) (c t : Fin 256) :
    val_main_v21 (F := Ideal) x1 x2 x5 x6 x7 x8 (ix3 b c t)
      = RowAttn.attB (layer x1 x5 x6 b) (layer x2 x7 x8 b) c t := by
  rw [val_main_v21_apply, val_main_v19_apply, val_main_v20_apply, val_main_cst_0_apply]
  show (∑ k : Fin 1024, val_main_v7 (F := Ideal) x1 x5 x6 (lidx_main_v19 (ix3 b c t) k)
          * val_main_v11 (F := Ideal) x2 x7 x8 (ridx_main_v19 (ix3 b c t) k)) * Ideal.ofBits .f32 0x3D000000#32
      = (∑ k : Fin 1024, layer x1 x5 x6 b c k * layer x2 x7 x8 b t k) * RowAttn.scale
  simp only [lidx_v19, ridx_v19, lin_v7, lin_v11]
  rfl

/-- The scores of row r of batch element b. -/
abbrev scores (x0 x1 x2 : A3) (x3 : W2) (x4 : B1) (x5 : W2) (x6 : B1) (x7 : W2) (x8 : B1) (b : Fin 128) (r : Fin 256) :
    Fin 256 → EReal :=
  RowAttn.score (RowAttn.attA (layer x0 x3 x4 b r) (layer x1 x5 x6 b)) (RowAttn.attB (layer x1 x5 x6 b) (layer x2 x7 x8 b))

theorem lidx_v22 (b : Fin 128) (r t c : Fin 256) : lidx_main_v22 (ix3 b r t) c = ix3 b r c :=
  funext fun a => by match a with | ⟨0, _⟩ => rfl | ⟨1, _⟩ => rfl | ⟨2, _⟩ => rfl
theorem ridx_v22 (b : Fin 128) (r t c : Fin 256) : ridx_main_v22 (ix3 b r t) c = ix3 b c t :=
  funext fun a => by match a with | ⟨0, _⟩ => rfl | ⟨1, _⟩ => rfl | ⟨2, _⟩ => rfl
/-- The product of the two attention matrices: element (b, r, t) is the score of row r at t. -/
theorem score_v22 (x0 x1 x2 : A3) (x3 : W2) (x4 : B1) (x5 : W2) (x6 : B1) (x7 : W2) (x8 : B1) (b : Fin 128) (r t : Fin 256) :
    val_main_v22 (F := Ideal) x0 x1 x2 x3 x4 x5 x6 x7 x8 (ix3 b r t) = scores x0 x1 x2 x3 x4 x5 x6 x7 x8 b r t := by
  rw [val_main_v22_apply]
  show (∑ c : Fin 256, val_main_v18 (F := Ideal) x0 x1 x3 x4 x5 x6 (lidx_main_v22 (ix3 b r t) c)
          * val_main_v21 (F := Ideal) x1 x2 x5 x6 x7 x8 (ridx_main_v22 (ix3 b r t) c))
      = ∑ c : Fin 256, RowAttn.attA (layer x0 x3 x4 b r) (layer x1 x5 x6 b) c
          * RowAttn.attB (layer x1 x5 x6 b) (layer x2 x7 x8 b) c t
  simp only [lidx_v22, ridx_v22, att_v18, att_v21]

/-! ## The row maximum -/

/-- The axis-2 coordinate inserted into (b, r) is (b, r, t). -/
theorem lift_v23 (h : S128x256x256.Reduces [2] S128x256) (b : Fin 128) (r t : Fin 256) :
    h.lift (ix2 b r) t = ix3 b r t :=
  funext fun a => Fin.ext (by match a with | ⟨0, _⟩ => rfl | ⟨1, _⟩ => rfl | ⟨2, _⟩ => rfl)

/-- The maximum over axis 2, folded from −∞ and then taken against −∞ once more, is the row maximum of the scores. -/
theorem max_v25 (x0 x1 x2 : A3) (x3 : W2) (x4 : B1) (x5 : W2) (x6 : B1) (x7 : W2) (x8 : B1) (b : Fin 128) (r : Fin 256) :
    val_main_v25 (F := Ideal) x0 x1 x2 x3 x4 x5 x6 x7 x8 (ix2 b r) = RowAttn.rowMax (scores x0 x1 x2 x3 x4 x5 x6 x7 x8 b r) := by
  have h : S128x256x256.Reduces [2] S128x256 := by decide
  rw [val_main_v25_apply, val_main_v24_apply, val_main_cst_2_apply]
  unfold val_main_v23
  rw [Host.reduce_eq_fold_single FloatOps.maximumf _ _ _ h]
  show max (Ideal.ofBits .f32 0xFF800000#32)
        ((Finset.univ : Finset (Fin 256)).fold max (Ideal.ofBits .f32 0xFF800000#32)
          (fun t : Fin 256 => val_main_v22 (F := Ideal) x0 x1 x2 x3 x4 x5 x6 x7 x8 (h.lift (ix2 b r) t)))
      = (Finset.univ : Finset (Fin 256)).fold max RowAttn.negInf (scores x0 x1 x2 x3 x4 x5 x6 x7 x8 b r)
  have hs : (fun t : Fin 256 => val_main_v22 (F := Ideal) x0 x1 x2 x3 x4 x5 x6 x7 x8 (h.lift (ix2 b r) t)) = scores x0 x1 x2 x3 x4 x5 x6 x7 x8 b r :=
    funext fun t => by rw [lift_v23, score_v22]
  rw [hs]
  exact RowAttn.max_start_fold _ _

/-! ## The softmax of the scores -/

theorem midx_v26 (b : Fin 128) (r t : Fin 256) : idx_main_v26 (idx_main_v27 (ix3 b r t)) = ix2 b r :=
  funext fun a => by match a with | ⟨0, _⟩ => rfl | ⟨1, _⟩ => rfl
/-- The scores less their row maximum. -/
theorem sub_v28 (x0 x1 x2 : A3) (x3 : W2) (x4 : B1) (x5 : W2) (x6 : B1) (x7 : W2) (x8 : B1) (b : Fin 128) (r t : Fin 256) :
    val_main_v28 (F := Ideal) x0 x1 x2 x3 x4 x5 x6 x7 x8 (ix3 b r t) = scores x0 x1 x2 x3 x4 x5 x6 x7 x8 b r t - RowAttn.rowMax (scores x0 x1 x2 x3 x4 x5 x6 x7 x8 b r) := by
  rw [val_main_v28_apply, val_main_v27_apply, val_main_v26_apply, midx_v26, max_v25, score_v22]
  rfl

/-- Their exponentials. -/
theorem exp_v29 (x0 x1 x2 : A3) (x3 : W2) (x4 : B1) (x5 : W2) (x6 : B1) (x7 : W2) (x8 : B1) (b : Fin 128) (r t : Fin 256) :
    val_main_v29 (F := Ideal) x0 x1 x2 x3 x4 x5 x6 x7 x8 (ix3 b r t) = RowAttn.expShift (scores x0 x1 x2 x3 x4 x5 x6 x7 x8 b r) t := by
  rw [val_main_v29_apply, sub_v28]
  rfl

theorem sidx_v30 (b : Fin 128) (r u : Fin 256) : idx_main_v30 (ix2 b r) u = ix3 b r u :=
  funext fun a => by match a with | ⟨0, _⟩ => rfl | ⟨1, _⟩ => rfl | ⟨2, _⟩ => rfl
/-- The sum of the exponentials over the row (the sum starts from the zero word). -/
theorem sum_v30 (x0 x1 x2 : A3) (x3 : W2) (x4 : B1) (x5 : W2) (x6 : B1) (x7 : W2) (x8 : B1) (b : Fin 128) (r : Fin 256) :
    val_main_v30 (F := Ideal) x0 x1 x2 x3 x4 x5 x6 x7 x8 (ix2 b r) = ∑ u : Fin 256, RowAttn.expShift (scores x0 x1 x2 x3 x4 x5 x6 x7 x8 b r) u := by
  rw [val_main_v30_apply, val_main_cst_3_apply]
  show Ideal.ofBits .f32 0x00000000#32 + ∑ u : Fin 256, val_main_v29 (F := Ideal) x0 x1 x2 x3 x4 x5 x6 x7 x8 (idx_main_v30 (ix2 b r) u)
      = ∑ u : Fin 256, RowAttn.expShift (scores x0 x1 x2 x3 x4 x5 x6 x7 x8 b r) u
  simp only [sidx_v30, exp_v29, Ideal.ofBits_zero_f32, zero_add]

theorem didx_v31 (b : Fin 128) (r t : Fin 256) : idx_main_v31 (idx_main_v32 (ix3 b r t)) = ix2 b r :=
  funext fun a => by match a with | ⟨0, _⟩ => rfl | ⟨1, _⟩ => rfl
/-- The quotient: the softmax of the row of scores. -/
theorem softmax_v33 (x0 x1 x2 : A3) (x3 : W2) (x4 : B1) (x5 : W2) (x6 : B1) (x7 : W2) (x8 : B1) (b : Fin 128) (r t : Fin 256) :
    val_main_v33 (F := Ideal) x0 x1 x2 x3 x4 x5 x6 x7 x8 (ix3 b r t) = RowAttn.softmax (scores x0 x1 x2 x3 x4 x5 x6 x7 x8 b r) t := by
  rw [val_main_v33_apply, val_main_v32_apply, val_main_v31_apply, didx_v31, sum_v30, exp_v29]
  rfl

/-! ## The mix of the value rows, and row 0 of it -/

theorem lidx_v34 (b : Fin 128) (r t : Fin 256) (d : Fin 1024) : lidx_main_v34 (ix3 b r d) t = ix3 b r t :=
  funext fun a => by match a with | ⟨0, _⟩ => rfl | ⟨1, _⟩ => rfl | ⟨2, _⟩ => rfl
theorem ridx_v34 (b : Fin 128) (r t : Fin 256) (d : Fin 1024) : ridx_main_v34 (ix3 b r d) t = ix3 b t d :=
  funext fun a => by match a with | ⟨0, _⟩ => rfl | ⟨1, _⟩ => rfl | ⟨2, _⟩ => rfl
/-- The softmax row times the value matrix: element (b, r, d). -/
theorem mix_v34 (x0 x1 x2 : A3) (x3 : W2) (x4 : B1) (x5 : W2) (x6 : B1) (x7 : W2) (x8 : B1) (x9 : W2) (x10 : B1) (b : Fin 128) (r : Fin 256) (d : Fin 1024) :
    val_main_v34 (F := Ideal) x0 x1 x2 x3 x4 x5 x6 x7 x8 x9 x10 (ix3 b r d)
      = RowAttn.mix (RowAttn.softmax (scores x0 x1 x2 x3 x4 x5 x6 x7 x8 b r)) (layer x2 x9 x10 b) d := by
  rw [val_main_v34_apply]
  show (∑ t : Fin 256, val_main_v33 (F := Ideal) x0 x1 x2 x3 x4 x5 x6 x7 x8 (lidx_main_v34 (ix3 b r d) t)
          * val_main_v15 (F := Ideal) x2 x9 x10 (ridx_main_v34 (ix3 b r d) t))
      = ∑ t : Fin 256, RowAttn.softmax (scores x0 x1 x2 x3 x4 x5 x6 x7 x8 b r) t * layer x2 x9 x10 b t d
  simp only [lidx_v34, ridx_v34, softmax_v33, lin_v15]

/-- The slice of row 0 reshaped to [128, 1024]: element (b, d) is element (b, 0, d). -/
theorem oidx_v36 (b : Fin 128) (d : Fin 1024) : idx_main_v35 (idx_main_v36 (ix2 b d)) = ix3 b (0 : Fin 256) d :=
  funext fun a => Fin.ext (by
    have hb := b.isLt
    have hd := d.isLt
    match a with
    | ⟨0, _⟩ => show (b.val * 1024 + d.val) / 1024 = b.val; omega
    | ⟨1, _⟩ => rfl
    | ⟨2, _⟩ => show (b.val * 1024 + d.val) % 1024 = d.val; omega)

/-- THE REFERENCE, READ AT (b, d): row 0 of the three-way attention of batch element b, at column d. -/
theorem reference_row
    (x0 x1 x2 : (⟨S128x256x1024, .f32⟩ : BufTy).Contents (Elt Ideal))
    (x3 : (⟨S1024x1024, .f32⟩ : BufTy).Contents (Elt Ideal)) (x4 : (⟨S1024, .f32⟩ : BufTy).Contents (Elt Ideal))
    (x5 : (⟨S1024x1024, .f32⟩ : BufTy).Contents (Elt Ideal)) (x6 : (⟨S1024, .f32⟩ : BufTy).Contents (Elt Ideal))
    (x7 : (⟨S1024x1024, .f32⟩ : BufTy).Contents (Elt Ideal)) (x8 : (⟨S1024, .f32⟩ : BufTy).Contents (Elt Ideal))
    (x9 : (⟨S1024x1024, .f32⟩ : BufTy).Contents (Elt Ideal)) (x10 : (⟨S1024, .f32⟩ : BufTy).Contents (Elt Ideal))
    (b : Fin 128) (d : Fin 1024) :
    Cert.ReferenceIdeal.Read.val_main_v36 (F := Ideal) x0 x1 x2 x3 x4 x5 x6 x7 x8 x9 x10 (ix2 b d)
      = Cert.RowAttn.rowAttn (fun l k => x1 (ix3 b l k)) (fun l k => x2 (ix3 b l k)) (fun k => x0 (ix3 b (0 : Fin 256) k))
          (fun e k => x3 (ix2 e k)) (fun e => x4 (ix1 e)) (fun e k => x5 (ix2 e k)) (fun e => x6 (ix1 e))
          (fun e k => x7 (ix2 e k)) (fun e => x8 (ix1 e)) (fun e k => x9 (ix2 e k)) (fun e => x10 (ix1 e)) d := by
  rw [val_main_v36_apply, val_main_v35_apply, oidx_v36, mix_v34]
  rfl

end Cert.RefRow

end
-- ==== Proof.KernelDots.lean ====
/-
  The kernel body's six matrix products, each read at an index of its result as a plain sum over the contracted
  coordinate (the accumulator is the zero splat, so nothing is added to the sum):
    a flattened batch times a weight      (p, e)    ↦ ∑ k, L (p, k) · R (k, e)          [1024 rows, and 4 rows]
    rows against rows, batch by batch     (b, i, j) ↦ ∑ k, L (b, i, k) · R (b, j, k)    [1 × 256 and 256 × 256 per batch]
    a row times a matrix, batch by batch  (b, i, j) ↦ ∑ k, L (b, i, k) · R (b, k, j)    [into 256 and into 1024 columns]
  Each operand index is named by its coordinates; the contraction index, a one-axis index, is re-indexed by its coordinate.
-/
import proofs.«100315_j51367808860581_2_alg».proof.Proof.Gen.KernelIdeal
import Idealize.ShloMosaic.Lib.ValueIdx
import Idealize.ShloMosaic.PureOps.Ideal.Laws

noncomputable section

namespace Cert.KernelIdeal.Dots

open Cert.KernelIdeal Idealize.ShloMosaic Idealize.ShloMosaic.ValueIdx

/-! ## A flattened batch (1024 rows) times a weight -/

theorem flat_lhs0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem flat_lhs1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem flat_rhs0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem flat_rhs1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- Row `p`, column `e` of the product of a 1024 × 1024 matrix with a 1024 × 1024 weight. -/
theorem flat_apply (l r : FVec Ideal S1024x1024 .bf16) (p e : Fin 1024) :
    matmul (F := Ideal) dot_S1024x1024_S1024x1024_S1024x1024_1_0_0_1_n_n none l r (constant S1024x1024 .f32 0x00000000#32) (ix2 p e)
      = ∑ k : Fin 1024, l (ix2 p k) * r (ix2 k e) := by
  refine (Ideal.matmul_constant_zero_apply dot_S1024x1024_S1024x1024_S1024x1024_1_0_0_1_n_n none l r (ix2 p e)).trans ?_
  rw [← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p e) ((contrEquiv1 dot_S1024x1024_S1024x1024_S1024x1024_1_0_0_1_n_n 1024 rfl rfl).symm k) = ix2 p k := funext fun a => Fin.ext (by
    match a with
    | ⟨0, _⟩ => exact flat_lhs0 _ _
    | ⟨1, _⟩ => exact (flat_lhs1 _ _).trans hk)
  have er : dot_S1024x1024_S1024x1024_S1024x1024_1_0_0_1_n_n.rhsIdx (ix2 p e) ((contrEquiv1 dot_S1024x1024_S1024x1024_S1024x1024_1_0_0_1_n_n 1024 rfl rfl).symm k) = ix2 k e := funext fun a => Fin.ext (by
    match a with
    | ⟨0, _⟩ => exact (flat_rhs0 _ _).trans hk
    | ⟨1, _⟩ => exact flat_rhs1 _ _)
  rw [el, er]

/-! ## Four rows times a weight -/

theorem rows4_lhs0 (i : S4x1024.Idx) (q : dot_S4x1024_S1024x1024_S4x1024_1_0_0_1_n_n.contr.Idx) :
    (dot_S4x1024_S1024x1024_S4x1024_1_0_0_1_n_n.lhsIdx i q 0).val = (i 0).val := by
  unfold DotDims.lhsIdx
  rw [dif_neg (show ¬(0 : Fin S4x1024.rank) ∈ dot_S4x1024_S1024x1024_S4x1024_1_0_0_1_n_n.lhsBatch by decide), dif_pos (show (0 : Fin S4x1024.rank) ∈ dot_S4x1024_S1024x1024_S4x1024_1_0_0_1_n_n.lhsNonContracting by decide)]
  rfl
theorem rows4_lhs1 (i : S4x1024.Idx) (q : dot_S4x1024_S1024x1024_S4x1024_1_0_0_1_n_n.contr.Idx) :
    (dot_S4x1024_S1024x1024_S4x1024_1_0_0_1_n_n.lhsIdx i q 1).val = (q ⟨0, by decide⟩).val :=
  dot_S4x1024_S1024x1024_S4x1024_1_0_0_1_n_n.lhsIdx_val_of_single rfl i q
theorem rows4_rhs0 (i : S4x1024.Idx) (q : dot_S4x1024_S1024x1024_S4x1024_1_0_0_1_n_n.contr.Idx) :
    (dot_S4x1024_S1024x1024_S4x1024_1_0_0_1_n_n.rhsIdx i q 0).val = (q ⟨0, by decide⟩).val :=
  dot_S4x1024_S1024x1024_S4x1024_1_0_0_1_n_n.rhsIdx_val_of_single rfl i q
theorem rows4_rhs1 (i : S4x1024.Idx) (q : dot_S4x1024_S1024x1024_S4x1024_1_0_0_1_n_n.contr.Idx) :
    (dot_S4x1024_S1024x1024_S4x1024_1_0_0_1_n_n.rhsIdx i q 1).val = (i 1).val := by
  unfold DotDims.rhsIdx
  rw [dif_neg (show ¬(1 : Fin S1024x1024.rank) ∈ dot_S4x1024_S1024x1024_S4x1024_1_0_0_1_n_n.rhsBatch by decide), dif_pos (show (1 : Fin S1024x1024.rank) ∈ dot_S4x1024_S1024x1024_S4x1024_1_0_0_1_n_n.rhsNonContracting by decide)]
  rfl

/-- Row `p` (of four), column `e` of the product of a 4 × 1024 matrix with a 1024 × 1024 weight. -/
theorem rows4_apply (l : FVec Ideal S4x1024 .bf16) (r : FVec Ideal S1024x1024 .bf16) (p : Fin 4) (e : Fin 1024) :
    matmul (F := Ideal) dot_S4x1024_S1024x1024_S4x1024_1_0_0_1_n_n none l r (constant S4x1024 .f32 0x00000000#32) (ix2 p e)
      = ∑ k : Fin 1024, l (ix2 p k) * r (ix2 k e) := by
  refine (Ideal.matmul_constant_zero_apply dot_S4x1024_S1024x1024_S4x1024_1_0_0_1_n_n none l r (ix2 p e)).trans ?_
  rw [← Equiv.sum_comp (contrEquiv1 dot_S4x1024_S1024x1024_S4x1024_1_0_0_1_n_n 1024 rfl rfl).symm]
  refine Finset.sum_congr rfl fun k _ => ?_
  have hk := contrEquiv1_symm_val dot_S4x1024_S1024x1024_S4x1024_1_0_0_1_n_n 1024 rfl rfl k
  have el : dot_S4x1024_S1024x1024_S4x1024_1_0_0_1_n_n.lhsIdx (ix2 p e) ((contrEquiv1 dot_S4x1024_S1024x1024_S4x1024_1_0_0_1_n_n 1024 rfl rfl).symm k) = ix2 p k := funext fun a => Fin.ext (by
    match a with
    | ⟨0, _⟩ => exact rows4_lhs0 _ _
    | ⟨1, _⟩ => exact (rows4_lhs1 _ _).trans hk)
  have er : dot_S4x1024_S1024x1024_S4x1024_1_0_0_1_n_n.rhsIdx (ix2 p e) ((contrEquiv1 dot_S4x1024_S1024x1024_S4x1024_1_0_0_1_n_n 1024 rfl rfl).symm k) = ix2 k e := funext fun a => Fin.ext (by
    match a with
    | ⟨0, _⟩ => exact (rows4_rhs0 _ _).trans hk
    | ⟨1, _⟩ => exact rows4_rhs1 _ _)
  rw [el, er]

/-! ## One query row against 256 key rows, batch by batch -/

theorem qk_lhs0 (i : S4x1x256.Idx) (q : dot_S4x1x1024_S4x256x1024_S4x1x256_2_2_1_1_0_0.contr.Idx) :
    (dot_S4x1x1024_S4x256x1024_S4x1x256_2_2_1_1_0_0.lhsIdx i q 0).val = (i 0).val := by
  unfold DotDims.lhsIdx
  rw [dif_pos (show (0 : Fin S4x1x1024.rank) ∈ dot_S4x1x1024_S4x256x1024_S4x1x256_2_2_1_1_0_0.lhsBatch by decide)]
  rfl
theorem qk_lhs1 (i : S4x1x256.Idx) (q : dot_S4x1x1024_S4x256x1024_S4x1x256_2_2_1_1_0_0.contr.Idx) :
    (dot_S4x1x1024_S4x256x1024_S4x1x256_2_2_1_1_0_0.lhsIdx i q 1).val = (i 1).val := by
  unfold DotDims.lhsIdx
  rw [dif_neg (show ¬(1 : Fin S4x1x1024.rank) ∈ dot_S4x1x1024_S4x256x1024_S4x1x256_2_2_1_1_0_0.lhsBatch by decide), dif_pos (show (1 : Fin S4x1x1024.rank) ∈ dot_S4x1x1024_S4x256x1024_S4x1x256_2_2_1_1_0_0.lhsNonContracting by decide)]
  rfl
theorem qk_lhs2 (i : S4x1x256.Idx) (q : dot_S4x1x1024_S4x256x1024_S4x1x256_2_2_1_1_0_0.contr.Idx) :
    (dot_S4x1x1024_S4x256x1024_S4x1x256_2_2_1_1_0_0.lhsIdx i q 2).val = (q ⟨0, by decide⟩).val :=
  dot_S4x1x1024_S4x256x1024_S4x1x256_2_2_1_1_0_0.lhsIdx_val_of_single rfl i q
theorem qk_rhs0 (i : S4x1x256.Idx) (q : dot_S4x1x1024_S4x256x1024_S4x1x256_2_2_1_1_0_0.contr.Idx) :
    (dot_S4x1x1024_S4x256x1024_S4x1x256_2_2_1_1_0_0.rhsIdx i q 0).val = (i 0).val := by
  unfold DotDims.rhsIdx
  rw [dif_pos (show (0 : Fin S4x256x1024.rank) ∈ dot_S4x1x1024_S4x256x1024_S4x1x256_2_2_1_1_0_0.rhsBatch by decide)]
  rfl
theorem qk_rhs1 (i : S4x1x256.Idx) (q : dot_S4x1x1024_S4x256x1024_S4x1x256_2_2_1_1_0_0.contr.Idx) :
    (dot_S4x1x1024_S4x256x1024_S4x1x256_2_2_1_1_0_0.rhsIdx i q 1).val = (i 2).val := by
  unfold DotDims.rhsIdx
  rw [dif_neg (show ¬(1 : Fin S4x256x1024.rank) ∈ dot_S4x1x1024_S4x256x1024_S4x1x256_2_2_1_1_0_0.rhsBatch by decide), dif_pos (show (1 : Fin S4x256x1024.rank) ∈ dot_S4x1x1024_S4x256x1024_S4x1x256_2_2_1_1_0_0.rhsNonContracting by decide)]
  rfl
theorem qk_rhs2 (i : S4x1x256.Idx) (q : dot_S4x1x1024_S4x256x1024_S4x1x256_2_2_1_1_0_0.contr.Idx) :
    (dot_S4x1x1024_S4x256x1024_S4x1x256_2_2_1_1_0_0.rhsIdx i q 2).val = (q ⟨0, by decide⟩).val :=
  dot_S4x1x1024_S4x256x1024_S4x1x256_2_2_1_1_0_0.rhsIdx_val_of_single rfl i q

/-- Batch `b`: the one query row against key row `c`. -/
theorem qk_apply (l : FVec Ideal S4x1x1024 .bf16) (r : FVec Ideal S4x256x1024 .bf16) (b : Fin 4) (o : Fin 1) (c : Fin 256) :
    matmul (F := Ideal) dot_S4x1x1024_S4x256x1024_S4x1x256_2_2_1_1_0_0 none l r (constant S4x1x256 .f32 0x00000000#32) (ix3 b o c)
      = ∑ k : Fin 1024, l (ix3 b o k) * r (ix3 b c k) := by
  refine (Ideal.matmul_constant_zero_apply dot_S4x1x1024_S4x256x1024_S4x1x256_2_2_1_1_0_0 none l r (ix3 b o c)).trans ?_
  rw [← Equiv.sum_comp (contrEquiv1 dot_S4x1x1024_S4x256x1024_S4x1x256_2_2_1_1_0_0 1024 rfl rfl).symm]
  refine Finset.sum_congr rfl fun k _ => ?_
  have hk := contrEquiv1_symm_val dot_S4x1x1024_S4x256x1024_S4x1x256_2_2_1_1_0_0 1024 rfl rfl k
  have el : dot_S4x1x1024_S4x256x1024_S4x1x256_2_2_1_1_0_0.lhsIdx (ix3 b o c) ((contrEquiv1 dot_S4x1x1024_S4x256x1024_S4x1x256_2_2_1_1_0_0 1024 rfl rfl).symm k) = ix3 b o k := funext fun a => Fin.ext (by
    match a with
    | ⟨0, _⟩ => exact qk_lhs0 _ _
    | ⟨1, _⟩ => exact qk_lhs1 _ _
    | ⟨2, _⟩ => exact (qk_lhs2 _ _).trans hk)
  have er : dot_S4x1x1024_S4x256x1024_S4x1x256_2_2_1_1_0_0.rhsIdx (ix3 b o c) ((contrEquiv1 dot_S4x1x1024_S4x256x1024_S4x1x256_2_2_1_1_0_0 1024 rfl rfl).symm k) = ix3 b c k := funext fun a => Fin.ext (by
    match a with
    | ⟨0, _⟩ => exact qk_rhs0 _ _
    | ⟨1, _⟩ => exact qk_rhs1 _ _
    | ⟨2, _⟩ => exact (qk_rhs2 _ _).trans hk)
  rw [el, er]

/-! ## 256 caption keys against 256 target keys, batch by batch -/

theorem kk_lhs0 (i : S4x256x256.Idx) (q : dot_S4x256x1024_S4x256x1024_S4x256x256_2_2_1_1_0_0.contr.Idx) :
    (dot_S4x256x1024_S4x256x1024_S4x256x256_2_2_1_1_0_0.lhsIdx i q 0).val = (i 0).val := by
  unfold DotDims.lhsIdx
  rw [dif_pos (show (0 : Fin S4x256x1024.rank) ∈ dot_S4x256x1024_S4x256x1024_S4x256x256_2_2_1_1_0_0.lhsBatch by decide)]
  rfl
theorem kk_lhs1 (i : S4x256x256.Idx) (q : dot_S4x256x1024_S4x256x1024_S4x256x256_2_2_1_1_0_0.contr.Idx) :
    (dot_S4x256x1024_S4x256x1024_S4x256x256_2_2_1_1_0_0.lhsIdx i q 1).val = (i 1).val := by
  unfold DotDims.lhsIdx
  rw [dif_neg (show ¬(1 : Fin S4x256x1024.rank) ∈ dot_S4x256x1024_S4x256x1024_S4x256x256_2_2_1_1_0_0.lhsBatch by decide), dif_pos (show (1 : Fin S4x256x1024.rank) ∈ dot_S4x256x1024_S4x256x1024_S4x256x256_2_2_1_1_0_0.lhsNonContracting by decide)]
  rfl
theorem kk_lhs2 (i : S4x256x256.Idx) (q : dot_S4x256x1024_S4x256x1024_S4x256x256_2_2_1_1_0_0.contr.Idx) :
    (dot_S4x256x1024_S4x256x1024_S4x256x256_2_2_1_1_0_0.lhsIdx i q 2).val = (q ⟨0, by decide⟩).val :=
  dot_S4x256x1024_S4x256x1024_S4x256x256_2_2_1_1_0_0.lhsIdx_val_of_single rfl i q
theorem kk_rhs0 (i : S4x256x256.Idx) (q : dot_S4x256x1024_S4x256x1024_S4x256x256_2_2_1_1_0_0.contr.Idx) :
    (dot_S4x256x1024_S4x256x1024_S4x256x256_2_2_1_1_0_0.rhsIdx i q 0).val = (i 0).val := by
  unfold DotDims.rhsIdx
  rw [dif_pos (show (0 : Fin S4x256x1024.rank) ∈ dot_S4x256x1024_S4x256x1024_S4x256x256_2_2_1_1_0_0.rhsBatch by decide)]
  rfl
theorem kk_rhs1 (i : S4x256x256.Idx) (q : dot_S4x256x1024_S4x256x1024_S4x256x256_2_2_1_1_0_0.contr.Idx) :
    (dot_S4x256x1024_S4x256x1024_S4x256x256_2_2_1_1_0_0.rhsIdx i q 1).val = (i 2).val := by
  unfold DotDims.rhsIdx
  rw [dif_neg (show ¬(1 : Fin S4x256x1024.rank) ∈ dot_S4x256x1024_S4x256x1024_S4x256x256_2_2_1_1_0_0.rhsBatch by decide), dif_pos (show (1 : Fin S4x256x1024.rank) ∈ dot_S4x256x1024_S4x256x1024_S4x256x256_2_2_1_1_0_0.rhsNonContracting by decide)]
  rfl
theorem kk_rhs2 (i : S4x256x256.Idx) (q : dot_S4x256x1024_S4x256x1024_S4x256x256_2_2_1_1_0_0.contr.Idx) :
    (dot_S4x256x1024_S4x256x1024_S4x256x256_2_2_1_1_0_0.rhsIdx i q 2).val = (q ⟨0, by decide⟩).val :=
  dot_S4x256x1024_S4x256x1024_S4x256x256_2_2_1_1_0_0.rhsIdx_val_of_single rfl i q

/-- Batch `b`: caption key row `c` against target key row `t`. -/
theorem kk_apply (l r : FVec Ideal S4x256x1024 .bf16) (b : Fin 4) (c t : Fin 256) :
    matmul (F := Ideal) dot_S4x256x1024_S4x256x1024_S4x256x256_2_2_1_1_0_0 none l r (constant S4x256x256 .f32 0x00000000#32) (ix3 b c t)
      = ∑ k : Fin 1024, l (ix3 b c k) * r (ix3 b t k) := by
  refine (Ideal.matmul_constant_zero_apply dot_S4x256x1024_S4x256x1024_S4x256x256_2_2_1_1_0_0 none l r (ix3 b c t)).trans ?_
  rw [← Equiv.sum_comp (contrEquiv1 dot_S4x256x1024_S4x256x1024_S4x256x256_2_2_1_1_0_0 1024 rfl rfl).symm]
  refine Finset.sum_congr rfl fun k _ => ?_
  have hk := contrEquiv1_symm_val dot_S4x256x1024_S4x256x1024_S4x256x256_2_2_1_1_0_0 1024 rfl rfl k
  have el : dot_S4x256x1024_S4x256x1024_S4x256x256_2_2_1_1_0_0.lhsIdx (ix3 b c t) ((contrEquiv1 dot_S4x256x1024_S4x256x1024_S4x256x256_2_2_1_1_0_0 1024 rfl rfl).symm k) = ix3 b c k := funext fun a => Fin.ext (by
    match a with
    | ⟨0, _⟩ => exact kk_lhs0 _ _
    | ⟨1, _⟩ => exact kk_lhs1 _ _
    | ⟨2, _⟩ => exact (kk_lhs2 _ _).trans hk)
  have er : dot_S4x256x1024_S4x256x1024_S4x256x256_2_2_1_1_0_0.rhsIdx (ix3 b c t) ((contrEquiv1 dot_S4x256x1024_S4x256x1024_S4x256x256_2_2_1_1_0_0 1024 rfl rfl).symm k) = ix3 b t k := funext fun a => Fin.ext (by
    match a with
    | ⟨0, _⟩ => exact kk_rhs0 _ _
    | ⟨1, _⟩ => exact kk_rhs1 _ _
    | ⟨2, _⟩ => exact (kk_rhs2 _ _).trans hk)
  rw [el, er]

/-! ## The first attention row times the second attention matrix, batch by batch -/

theorem ab_lhs0 (i : S4x1x256.Idx) (q : dot_S4x1x256_S4x256x256_S4x1x256_2_1_1_2_0_0.contr.Idx) :
    (dot_S4x1x256_S4x256x256_S4x1x256_2_1_1_2_0_0.lhsIdx i q 0).val = (i 0).val := by
  unfold DotDims.lhsIdx
  rw [dif_pos (show (0 : Fin S4x1x256.rank) ∈ dot_S4x1x256_S4x256x256_S4x1x256_2_1_1_2_0_0.lhsBatch by decide)]
  rfl
theorem ab_lhs1 (i : S4x1x256.Idx) (q : dot_S4x1x256_S4x256x256_S4x1x256_2_1_1_2_0_0.contr.Idx) :
    (dot_S4x1x256_S4x256x256_S4x1x256_2_1_1_2_0_0.lhsIdx i q 1).val = (i 1).val := by
  unfold DotDims.lhsIdx
  rw [dif_neg (show ¬(1 : Fin S4x1x256.rank) ∈ dot_S4x1x256_S4x256x256_S4x1x256_2_1_1_2_0_0.lhsBatch by decide), dif_pos (show (1 : Fin S4x1x256.rank) ∈ dot_S4x1x256_S4x256x256_S4x1x256_2_1_1_2_0_0.lhsNonContracting by decide)]
  rfl
theorem ab_lhs2 (i : S4x1x256.Idx) (q : dot_S4x1x256_S4x256x256_S4x1x256_2_1_1_2_0_0.contr.Idx) :
    (dot_S4x1x256_S4x256x256_S4x1x256_2_1_1_2_0_0.lhsIdx i q 2).val = (q ⟨0, by decide⟩).val :=
  dot_S4x1x256_S4x256x256_S4x1x256_2_1_1_2_0_0.lhsIdx_val_of_single rfl i q
theorem ab_rhs0 (i : S4x1x256.Idx) (q : dot_S4x1x256_S4x256x256_S4x1x256_2_1_1_2_0_0.contr.Idx) :
    (dot_S4x1x256_S4x256x256_S4x1x256_2_1_1_2_0_0.rhsIdx i q 0).val = (i 0).val := by
  unfold DotDims.rhsIdx
  rw [dif_pos (show (0 : Fin S4x256x256.rank) ∈ dot_S4x1x256_S4x256x256_S4x1x256_2_1_1_2_0_0.rhsBatch by decide)]
  rfl
theorem ab_rhs1 (i : S4x1x256.Idx) (q : dot_S4x1x256_S4x256x256_S4x1x256_2_1_1_2_0_0.contr.Idx) :
    (dot_S4x1x256_S4x256x256_S4x1x256_2_1_1_2_0_0.rhsIdx i q 1).val = (q ⟨0, by decide⟩).val :=
  dot_S4x1x256_S4x256x256_S4x1x256_2_1_1_2_0_0.rhsIdx_val_of_single rfl i q
theorem ab_rhs2 (i : S4x1x256.Idx) (q : dot_S4x1x256_S4x256x256_S4x1x256_2_1_1_2_0_0.contr.Idx) :
    (dot_S4x1x256_S4x256x256_S4x1x256_2_1_1_2_0_0.rhsIdx i q 2).val = (i 2).val := by
  unfold DotDims.rhsIdx
  rw [dif_neg (show ¬(2 : Fin S4x256x256.rank) ∈ dot_S4x1x256_S4x256x256_S4x1x256_2_1_1_2_0_0.rhsBatch by decide), dif_pos (show (2 : Fin S4x256x256.rank) ∈ dot_S4x1x256_S4x256x256_S4x1x256_2_1_1_2_0_0.rhsNonContracting by decide)]
  rfl

/-- Batch `b`: the score of target `t`, the first attention row against column `t` of the second attention matrix. -/
theorem ab_apply (l : FVec Ideal S4x1x256 .bf16) (r : FVec Ideal S4x256x256 .bf16) (b : Fin 4) (o : Fin 1) (t : Fin 256) :
    matmul (F := Ideal) dot_S4x1x256_S4x256x256_S4x1x256_2_1_1_2_0_0 none l r (constant S4x1x256 .f32 0x00000000#32) (ix3 b o t)
      = ∑ k : Fin 256, l (ix3 b o k) * r (ix3 b k t) := by
  refine (Ideal.matmul_constant_zero_apply dot_S4x1x256_S4x256x256_S4x1x256_2_1_1_2_0_0 none l r (ix3 b o t)).trans ?_
  rw [← Equiv.sum_comp (contrEquiv1 dot_S4x1x256_S4x256x256_S4x1x256_2_1_1_2_0_0 256 rfl rfl).symm]
  refine Finset.sum_congr rfl fun k _ => ?_
  have hk := contrEquiv1_symm_val dot_S4x1x256_S4x256x256_S4x1x256_2_1_1_2_0_0 256 rfl rfl k
  have el : dot_S4x1x256_S4x256x256_S4x1x256_2_1_1_2_0_0.lhsIdx (ix3 b o t) ((contrEquiv1 dot_S4x1x256_S4x256x256_S4x1x256_2_1_1_2_0_0 256 rfl rfl).symm k) = ix3 b o k := funext fun a => Fin.ext (by
    match a with
    | ⟨0, _⟩ => exact ab_lhs0 _ _
    | ⟨1, _⟩ => exact ab_lhs1 _ _
    | ⟨2, _⟩ => exact (ab_lhs2 _ _).trans hk)
  have er : dot_S4x1x256_S4x256x256_S4x1x256_2_1_1_2_0_0.rhsIdx (ix3 b o t) ((contrEquiv1 dot_S4x1x256_S4x256x256_S4x1x256_2_1_1_2_0_0 256 rfl rfl).symm k) = ix3 b k t := funext fun a => Fin.ext (by
    match a with
    | ⟨0, _⟩ => exact ab_rhs0 _ _
    | ⟨1, _⟩ => exact (ab_rhs1 _ _).trans hk
    | ⟨2, _⟩ => exact ab_rhs2 _ _)
  rw [el, er]

/-! ## The softmax row times the value rows, batch by batch -/

theorem pv_lhs0 (i : S4x1x1024.Idx) (q : dot_S4x1x256_S4x256x1024_S4x1x1024_2_1_1_2_0_0.contr.Idx) :
    (dot_S4x1x256_S4x256x1024_S4x1x1024_2_1_1_2_0_0.lhsIdx i q 0).val = (i 0).val := by
  unfold DotDims.lhsIdx
  rw [dif_pos (show (0 : Fin S4x1x256.rank) ∈ dot_S4x1x256_S4x256x1024_S4x1x1024_2_1_1_2_0_0.lhsBatch by decide)]
  rfl
theorem pv_lhs1 (i : S4x1x1024.Idx) (q : dot_S4x1x256_S4x256x1024_S4x1x1024_2_1_1_2_0_0.contr.Idx) :
    (dot_S4x1x256_S4x256x1024_S4x1x1024_2_1_1_2_0_0.lhsIdx i q 1).val = (i 1).val := by
  unfold DotDims.lhsIdx
  rw [dif_neg (show ¬(1 : Fin S4x1x256.rank) ∈ dot_S4x1x256_S4x256x1024_S4x1x1024_2_1_1_2_0_0.lhsBatch by decide), dif_pos (show (1 : Fin S4x1x256.rank) ∈ dot_S4x1x256_S4x256x1024_S4x1x1024_2_1_1_2_0_0.lhsNonContracting by decide)]
  rfl
theorem pv_lhs2 (i : S4x1x1024.Idx) (q : dot_S4x1x256_S4x256x1024_S4x1x1024_2_1_1_2_0_0.contr.Idx) :
    (dot_S4x1x256_S4x256x1024_S4x1x1024_2_1_1_2_0_0.lhsIdx i q 2).val = (q ⟨0, by decide⟩).val :=
  dot_S4x1x256_S4x256x1024_S4x1x1024_2_1_1_2_0_0.lhsIdx_val_of_single rfl i q
theorem pv_rhs0 (i : S4x1x1024.Idx) (q : dot_S4x1x256_S4x256x1024_S4x1x1024_2_1_1_2_0_0.contr.Idx) :
    (dot_S4x1x256_S4x256x1024_S4x1x1024_2_1_1_2_0_0.rhsIdx i q 0).val = (i 0).val := by
  unfold DotDims.rhsIdx
  rw [dif_pos (show (0 : Fin S4x256x1024.rank) ∈ dot_S4x1x256_S4x256x1024_S4x1x1024_2_1_1_2_0_0.rhsBatch by decide)]
  rfl
theorem pv_rhs1 (i : S4x1x1024.Idx) (q : dot_S4x1x256_S4x256x1024_S4x1x1024_2_1_1_2_0_0.contr.Idx) :
    (dot_S4x1x256_S4x256x1024_S4x1x1024_2_1_1_2_0_0.rhsIdx i q 1).val = (q ⟨0, by decide⟩).val :=
  dot_S4x1x256_S4x256x1024_S4x1x1024_2_1_1_2_0_0.rhsIdx_val_of_single rfl i q
theorem pv_rhs2 (i : S4x1x1024.Idx) (q : dot_S4x1x256_S4x256x1024_S4x1x1024_2_1_1_2_0_0.contr.Idx) :
    (dot_S4x1x256_S4x256x1024_S4x1x1024_2_1_1_2_0_0.rhsIdx i q 2).val = (i 2).val := by
  unfold DotDims.rhsIdx
  rw [dif_neg (show ¬(2 : Fin S4x256x1024.rank) ∈ dot_S4x1x256_S4x256x1024_S4x1x1024_2_1_1_2_0_0.rhsBatch by decide), dif_pos (show (2 : Fin S4x256x1024.rank) ∈ dot_S4x1x256_S4x256x1024_S4x1x1024_2_1_1_2_0_0.rhsNonContracting by decide)]
  rfl

/-- Batch `b`: column `d` of the softmax row mixed over the 256 value rows. -/
theorem pv_apply (l : FVec Ideal S4x1x256 .bf16) (r : FVec Ideal S4x256x1024 .bf16) (b : Fin 4) (o : Fin 1) (d : Fin 1024) :
    matmul (F := Ideal) dot_S4x1x256_S4x256x1024_S4x1x1024_2_1_1_2_0_0 none l r (constant S4x1x1024 .f32 0x00000000#32) (ix3 b o d)
      = ∑ k : Fin 256, l (ix3 b o k) * r (ix3 b k d) := by
  refine (Ideal.matmul_constant_zero_apply dot_S4x1x256_S4x256x1024_S4x1x1024_2_1_1_2_0_0 none l r (ix3 b o d)).trans ?_
  rw [← Equiv.sum_comp (contrEquiv1 dot_S4x1x256_S4x256x1024_S4x1x1024_2_1_1_2_0_0 256 rfl rfl).symm]
  refine Finset.sum_congr rfl fun k _ => ?_
  have hk := contrEquiv1_symm_val dot_S4x1x256_S4x256x1024_S4x1x1024_2_1_1_2_0_0 256 rfl rfl k
  have el : dot_S4x1x256_S4x256x1024_S4x1x1024_2_1_1_2_0_0.lhsIdx (ix3 b o d) ((contrEquiv1 dot_S4x1x256_S4x256x1024_S4x1x1024_2_1_1_2_0_0 256 rfl rfl).symm k) = ix3 b o k := funext fun a => Fin.ext (by
    match a with
    | ⟨0, _⟩ => exact pv_lhs0 _ _
    | ⟨1, _⟩ => exact pv_lhs1 _ _
    | ⟨2, _⟩ => exact (pv_lhs2 _ _).trans hk)
  have er : dot_S4x1x256_S4x256x1024_S4x1x1024_2_1_1_2_0_0.rhsIdx (ix3 b o d) ((contrEquiv1 dot_S4x1x256_S4x256x1024_S4x1x1024_2_1_1_2_0_0 256 rfl rfl).symm k) = ix3 b k d := funext fun a => Fin.ext (by
    match a with
    | ⟨0, _⟩ => exact pv_rhs0 _ _
    | ⟨1, _⟩ => exact (pv_rhs1 _ _).trans hk
    | ⟨2, _⟩ => exact pv_rhs2 _ _)
  rw [el, er]

end Cert.KernelIdeal.Dots

end
-- ==== Proof.BlockLayout.lean ====
/-
  Re-laying a block, read at an index, for the shapes of this kernel's body.

  A block of 4 batch elements × 256 rows × 1024 columns is flattened to 1024 rows (row `p = 256·b + l`) for the
  linear layers and unflattened afterwards; a unit row axis is dropped and put back around the query projection;
  a row's maximum and sum (one number per batch element) are put back on a unit axis and broadcast over the row;
  a bias row is broadcast over all rows. Also the two row reductions themselves: the maximum as a fold of `max`
  from the accumulator's word, the sum as a plain sum.
-/
import Idealize.ShloMosaic.Lib.Pipeline.Value
import Idealize.ShloMosaic.Lib.ValueIdx
import Idealize.ShloMosaic.Lib.ValueLayout
import Idealize.ShloMosaic.PureOps.Ideal.Laws

noncomputable section

namespace Cert.BlockLayout

open Idealize.ShloMosaic Idealize.ShloMosaic.ValueIdx

variable {α : Type}

/-- [4, 256, 1024] flattened to [1024, 1024]: row `p = 256·b + l` is row `l` of batch element `b`. -/
theorem flatten_apply (x : (⟨3, ![4, 256, 1024]⟩ : Shape).Idx → α)
    (h : (⟨3, ![4, 256, 1024]⟩ : Shape).ShapeCasts ⟨2, ![1024, 1024]⟩)
    (b : Fin 4) (l : Fin 256) (k : Fin 1024) (p : Fin 1024) (hp : p.val = b.val * 256 + l.val) :
    shapeCast ⟨2, ![1024, 1024]⟩ x h (ix2 p k) = x (ix3 b l k) :=
  shapeCast_apply x h _ _ (by
    rw [Shape.rowMajor_val_three, Shape.rowMajor_val_two]
    show (b.val * 256 + l.val) * 1024 + k.val = p.val * 1024 + k.val
    rw [hp])

/-- [1024, 1024] unflattened to [4, 256, 1024]: the inverse reading. -/
theorem unflatten_apply (x : (⟨2, ![1024, 1024]⟩ : Shape).Idx → α)
    (h : (⟨2, ![1024, 1024]⟩ : Shape).ShapeCasts ⟨3, ![4, 256, 1024]⟩)
    (b : Fin 4) (l : Fin 256) (k : Fin 1024) (p : Fin 1024) (hp : p.val = b.val * 256 + l.val) :
    shapeCast ⟨3, ![4, 256, 1024]⟩ x h (ix3 b l k) = x (ix2 p k) :=
  shapeCast_apply x h _ _ (by
    rw [Shape.rowMajor_val_two, Shape.rowMajor_val_three]
    show p.val * 1024 + k.val = (b.val * 256 + l.val) * 1024 + k.val
    rw [hp])

/-- [4, 1, 1024] with the unit row axis dropped: [4, 1024]. -/
theorem dropRow_apply (x : (⟨3, ![4, 1, 1024]⟩ : Shape).Idx → α)
    (h : (⟨3, ![4, 1, 1024]⟩ : Shape).ShapeCasts ⟨2, ![4, 1024]⟩) (b : Fin 4) (k : Fin 1024) :
    shapeCast ⟨2, ![4, 1024]⟩ x h (ix2 b k) = x (ix3 b (0 : Fin 1) k) :=
  shapeCast_apply x h _ _ (by
    rw [Shape.rowMajor_val_three, Shape.rowMajor_val_two]
    show (b.val * 1 + 0) * 1024 + k.val = b.val * 1024 + k.val
    omega)

/-- [4, 1024] with a unit row axis put in: [4, 1, 1024]. -/
theorem addRow_apply (x : (⟨2, ![4, 1024]⟩ : Shape).Idx → α)
    (h : (⟨2, ![4, 1024]⟩ : Shape).ShapeCasts ⟨3, ![4, 1, 1024]⟩) (b : Fin 4) (o : Fin 1) (k : Fin 1024) :
    shapeCast ⟨3, ![4, 1, 1024]⟩ x h (ix3 b o k) = x (ix2 b k) :=
  shapeCast_apply x h _ _ (by
    have ho : o.val = 0 := by omega
    rw [Shape.rowMajor_val_two, Shape.rowMajor_val_three]
    show b.val * 1024 + k.val = (b.val * 1 + o.val) * 1024 + k.val
    omega)

/-- One number per batch element, [4, 1], put on a further unit axis: [4, 1, 1]. -/
theorem addUnit_apply (x : (⟨2, ![4, 1]⟩ : Shape).Idx → α)
    (h : (⟨2, ![4, 1]⟩ : Shape).ShapeCasts ⟨3, ![4, 1, 1]⟩) (b : Fin 4) (o u : Fin 1) :
    shapeCast ⟨3, ![4, 1, 1]⟩ x h (ix3 b o u) = x (ix2 b (0 : Fin 1)) :=
  shapeCast_apply x h _ _ (by
    have ho : o.val = 0 := by omega
    have hu : u.val = 0 := by omega
    rw [Shape.rowMajor_val_two, Shape.rowMajor_val_three]
    show b.val * 1 + 0 = (b.val * 1 + o.val) * 1 + u.val
    omega)

/-- One number per batch element, [4, 1, 1], broadcast over the 256 entries of the row: [4, 1, 256]. -/
theorem overRow_apply (x : (⟨3, ![4, 1, 1]⟩ : Shape).Idx → α)
    (h : (⟨3, ![4, 1, 1]⟩ : Shape).Broadcasts ⟨3, ![4, 1, 256]⟩) (b : Fin 4) (o : Fin 1) (t : Fin 256) :
    broadcastTo ⟨3, ![4, 1, 256]⟩ x h (ix3 b o t) = x (ix3 b (0 : Fin 1) (0 : Fin 1)) := by
  refine broadcastTo_apply x h (ix3 b o t) (ix3 b (0 : Fin 1) (0 : Fin 1)) fun ax => ?_
  match ax with
  | ⟨0, _⟩ => show b.val = if (4 : Nat) = 1 then 0 else b.val; rw [if_neg (by decide)]
  | ⟨1, _⟩ => show 0 = if (1 : Nat) = 1 then 0 else o.val; rw [if_pos rfl]
  | ⟨2, _⟩ => show 0 = if (1 : Nat) = 1 then 0 else t.val; rw [if_pos rfl]

/-- The maximum of each row of a [4, 1, 256] block, folded from the accumulator's word. -/
theorem rowMax_apply (src : FVec Ideal ⟨3, ![4, 1, 256]⟩ .f32) (h : (⟨3, ![4, 1, 256]⟩ : Shape).Reduces [2] ⟨2, ![4, 1]⟩)
    (hφ : FKind.Formats .f32) (hacc : (0xFF800000#32 : BitVec 32) = FKind.maximumf.neutral .f32 hφ) (b : Fin 4) (o : Fin 1) :
    multiReduction (F := Ideal) .maximumf [2] ⟨2, ![4, 1]⟩ src 0xFF800000#32 h hφ hacc (ix2 b o)
      = (Finset.univ : Finset (Fin 256)).fold max (Ideal.ofBits .f32 0xFF800000#32) (fun t => src (ix3 b o t)) := by
  refine (Ideal.multiReduction_maximumf_single src 0xFF800000#32 h hφ hacc (ix2 b o)).trans ?_
  exact Finset.fold_congr fun t _ => congrArg src (funext fun a => Fin.ext (by
    match a with | ⟨0, _⟩ => rfl | ⟨1, _⟩ => rfl | ⟨2, _⟩ => rfl))

/-- The sum of each row of a [4, 1, 256] block. -/
theorem rowSum_apply (src : FVec Ideal ⟨3, ![4, 1, 256]⟩ .f32) (h : (⟨3, ![4, 1, 256]⟩ : Shape).Reduces [2] ⟨2, ![4, 1]⟩)
    (hφ : FKind.Formats .f32) (hacc : (0x00000000#32 : BitVec 32) = FKind.add.neutral .f32 hφ) (b : Fin 4) (o : Fin 1) :
    multiReduction (F := Ideal) .add [2] ⟨2, ![4, 1]⟩ src 0x00000000#32 h hφ hacc (ix2 b o)
      = ∑ t : Fin 256, src (ix3 b o t) := by
  refine (Ideal.multiReduction_add_single src 0x00000000#32 h hφ hacc (ix2 b o)).trans ?_
  exact Finset.sum_congr rfl fun t _ => congrArg src (funext fun a => Fin.ext (by
    match a with | ⟨0, _⟩ => rfl | ⟨1, _⟩ => rfl | ⟨2, _⟩ => rfl))

end Cert.BlockLayout

end
-- ==== Proof.KernelBlock.lean ====
/-
  The kernel body's arithmetic, read at one index.

  At a grid point the body holds a block of 4 batch elements. It flattens the 4 × 256 caption rows and target rows to
  1024 rows, applies the key, target-key and value layers to all of them and the query layer to the 4 first reference
  rows, and then, batch element by batch element, forms the first attention row, the second attention matrix, the row
  of scores, its softmax and the mix of the value rows. Read at batch element `b` of the block and column `d`, what it
  stores is the row attention of that batch element (`Cert.RowAttn.rowAttn`) of the block's rows — the weights entering
  transposed (the host hands the body `Wᵀ`) and each bias as a one-row matrix.
-/
import proofs.«100315_j51367808860581_2_alg».proof.Proof.Gen.KernelIdeal.Frame
import proofs.«100315_j51367808860581_2_alg».proof.Proof.KernelDots
import proofs.«100315_j51367808860581_2_alg».proof.Proof.BlockLayout
import proofs.«100315_j51367808860581_2_alg».proof.Proof.RowAttention

noncomputable section

namespace Cert.KernelIdeal.Block

open Cert.KernelIdeal Cert.KernelIdeal.Gen Idealize.ShloMosaic Idealize.ShloMosaic.ValueIdx Cert.RowAttn

/-! ## The linear layers -/

/-- The row of a flattened block: `256·b + l`. -/
def flatRow (b : Fin 4) (l : Fin 256) : Fin 1024 := ⟨b.val * 256 + l.val, by have := b.isLt; have := l.isLt; omega⟩

/-- A linear layer applied to 1024 flattened rows and unflattened: at (b, l, e) it is the layer's sum over the
    flattened row `256·b + l`, plus the bias. -/
theorem linear_rows (flat w : FVec Ideal S1024x1024 .bf16) (bias : FVec Ideal S1x1024 .f32)
    (hww : S1024x1024.ShapeCasts S1024x1024) (hbb : S1x1024.ShapeCasts S1x1024) (hbr : S1x1024.Broadcasts S1024x1024)
    (hlt : FTy.bits .bf16 < FTy.bits .f32) (hun : S1024x1024.ShapeCasts S4x256x1024)
    (b : Fin 4) (l : Fin 256) (e : Fin 1024) :
    shapeCast S4x256x1024 (truncf .bf16 (addf (matmul (F := Ideal) dot_S1024x1024_S1024x1024_S1024x1024_1_0_0_1_n_n none flat
        (shapeCast S1024x1024 w hww) (constant S1024x1024 .f32 0x00000000#32))
        (broadcastTo S1024x1024 (shapeCast S1x1024 bias hbb) hbr)) hlt) hun (ix3 b l e)
      = (∑ k : Fin 1024, flat (ix2 (flatRow b l) k) * w (ix2 k e)) + bias (ix2 (0 : Fin 1) e) := by
  refine (BlockLayout.unflatten_apply _ hun b l e (flatRow b l) rfl).trans ?_
  refine congrArg₂ (fun u v : EReal => u + v) ?_ ?_
  · refine (Dots.flat_apply flat (shapeCast S1024x1024 w hww) (flatRow b l) e).trans ?_
    exact Finset.sum_congr rfl fun k _ => congrArg (fun v : EReal => flat (ix2 (flatRow b l) k) * v)
      (congrFun (shapeCast_self w hww) (ix2 k e))
  · exact (broadcastTo_1b_ab_apply (shapeCast S1x1024 bias hbb) hbr (flatRow b l) e).trans
      (congrFun (shapeCast_self bias hbb) (ix2 (0 : Fin 1) e))

/-- The flattened target rows. -/
theorem pay2_apply (x : FVec Ideal S4x256x1024 .f32) (b : Fin 4) (l : Fin 256) (k : Fin 1024) :
    k0_pay2 (F := Ideal) x (ix2 (flatRow b l) k) = x (ix3 b l k) := by
  unfold k0_pay2
  exact BlockLayout.flatten_apply _ _ b l k (flatRow b l) rfl

/-- The caption keys of a block: the key layer on row `l` of batch element `b`. -/
theorem pay3_apply (x0 : FVec Ideal S4x256x1024 .f32) (w : FVec Ideal S1024x1024 .bf16) (bias : FVec Ideal S1x1024 .f32)
    (b : Fin 4) (l : Fin 256) (e : Fin 1024) :
    k0_pay3 (F := Ideal) x0 w bias (ix3 b l e)
      = lin (fun e k => w (ix2 k e)) (fun e => bias (ix2 (0 : Fin 1) e)) (fun k => x0 (ix3 b l k)) e := by
  unfold k0_pay3
  refine (linear_rows _ w bias _ _ _ _ _ b l e).trans ?_
  unfold lin
  refine congrArg (fun v : EReal => v + bias (ix2 (0 : Fin 1) e)) ?_
  exact Finset.sum_congr rfl fun k _ => congrArg (fun v : EReal => v * w (ix2 k e))
    (BlockLayout.flatten_apply _ _ b l k (flatRow b l) rfl)

/-- The target keys of a block. -/
theorem pay4_apply (x1 : FVec Ideal S4x256x1024 .f32) (w : FVec Ideal S1024x1024 .bf16) (bias : FVec Ideal S1x1024 .f32)
    (b : Fin 4) (l : Fin 256) (e : Fin 1024) :
    k0_pay4 (F := Ideal) x1 w bias (ix3 b l e)
      = lin (fun e k => w (ix2 k e)) (fun e => bias (ix2 (0 : Fin 1) e)) (fun k => x1 (ix3 b l k)) e := by
  unfold k0_pay4
  refine (linear_rows (k0_pay2 (F := Ideal) x1) w bias _ _ _ _ _ b l e).trans ?_
  unfold lin
  refine congrArg (fun v : EReal => v + bias (ix2 (0 : Fin 1) e)) ?_
  exact Finset.sum_congr rfl fun k _ => congrArg (fun v : EReal => v * w (ix2 k e)) (pay2_apply x1 b l k)

/-- The query of a block: the query layer on the first reference row of batch element `b`. -/
theorem pay5_apply (x2 : FVec Ideal S4x1x1024 .f32) (w : FVec Ideal S1024x1024 .bf16) (bias : FVec Ideal S1x1024 .f32)
    (b : Fin 4) (e : Fin 1024) :
    k0_pay5 (F := Ideal) x2 w bias (ix2 b e)
      = lin (fun e k => w (ix2 k e)) (fun e => bias (ix2 (0 : Fin 1) e)) (fun k => x2 (ix3 b (0 : Fin 1) k)) e := by
  unfold k0_pay5 lin
  refine congrArg₂ (fun u v : EReal => u + v) ?_ ?_
  · refine (Dots.rows4_apply _ _ b e).trans ?_
    refine Finset.sum_congr rfl fun k _ => congrArg₂ (fun u v : EReal => u * v) ?_ ?_
    · refine (BlockLayout.dropRow_apply _ _ b k).trans ?_
      exact congrFun (shapeCast_self x2 _) (ix3 b (0 : Fin 1) k)
    · exact congrFun (shapeCast_self w _) (ix2 k e)
  · exact (broadcastTo_1b_ab_apply _ _ b e).trans (congrFun (shapeCast_self bias _) (ix2 (0 : Fin 1) e))

/-! ## The scores, their softmax, and the stored row -/

/-- The row of scores of batch element `b`: the scaled query-against-caption-keys row times the scaled
    caption-keys-against-target-keys matrix. -/
theorem scores_apply (v18 v27 : FVec Ideal S4x256x1024 .bf16) (v34 : FVec Ideal S4x1024 .f32)
    (hlt : FTy.bits .bf16 < FTy.bits .f32) (hadd : S4x1024.ShapeCasts S4x1x1024) (b : Fin 4) (t : Fin 256) :
    matmul (F := Ideal) dot_S4x1x256_S4x256x256_S4x1x256_2_1_1_2_0_0 none
        (truncf .bf16 (mulf (matmul (F := Ideal) dot_S4x1x1024_S4x256x1024_S4x1x256_2_2_1_1_0_0 none
            (shapeCast S4x1x1024 (truncf .bf16 v34 hlt) hadd) v18 (constant S4x1x256 .f32 0x00000000#32))
          (broadcast S4x1x256 (Scalar.ofBits (F := Ideal) .f32 0x3D000000#32))) hlt)
        (truncf .bf16 (mulf (matmul (F := Ideal) dot_S4x256x1024_S4x256x1024_S4x256x256_2_2_1_1_0_0 none v18 v27
            (constant S4x256x256 .f32 0x00000000#32))
          (broadcast S4x256x256 (Scalar.ofBits (F := Ideal) .f32 0x3D000000#32))) hlt)
        (constant S4x1x256 .f32 0x00000000#32) (ix3 b (0 : Fin 1) t)
      = score (attA (fun k => v34 (ix2 b k)) (fun c k => v18 (ix3 b c k)))
          (attB (fun c k => v18 (ix3 b c k)) (fun u k => v27 (ix3 b u k))) t := by
  refine (Dots.ab_apply _ _ b (0 : Fin 1) t).trans ?_
  unfold score
  refine Finset.sum_congr rfl fun c _ => congrArg₂ (fun u v : EReal => u * v) ?_ ?_
  · unfold attA
    refine congrArg₂ (fun u v : EReal => u * v) ?_ rfl
    refine (Dots.qk_apply _ v18 b (0 : Fin 1) c).trans ?_
    exact Finset.sum_congr rfl fun k _ => congrArg (fun v : EReal => v * v18 (ix3 b c k))
      (BlockLayout.addRow_apply _ hadd b (0 : Fin 1) k)
  · unfold attB
    refine congrArg₂ (fun u v : EReal => u * v) ?_ rfl
    exact Dots.kk_apply v18 v27 b c t

/-- The softmax of a row of a [4, 1, 256] block of scores: the exponentials of the scores less their row maximum,
    over their row sum (maximum and sum each reduced to one number per batch element and broadcast back). -/
theorem softmax_apply (sc : FVec Ideal S4x1x256 .f32) (hlt : FTy.bits .bf16 < FTy.bits .f32)
    (hr : S4x1x256.Reduces [2] S4x1) (hφ : FKind.Formats .f32)
    (hmax : (0xFF800000#32 : BitVec 32) = FKind.maximumf.neutral .f32 hφ)
    (hsum : (0x00000000#32 : BitVec 32) = FKind.add.neutral .f32 hφ)
    (hc : S4x1.ShapeCasts S4x1x1) (hb : S4x1x1.Broadcasts S4x1x256) (b : Fin 4) (t : Fin 256) :
    truncf .bf16 (divf
        (exp (subf sc (broadcastTo S4x1x256 (shapeCast S4x1x1
          (multiReduction (F := Ideal) .maximumf [2] S4x1 sc 0xFF800000#32 hr hφ hmax) hc) hb)))
        (broadcastTo S4x1x256 (shapeCast S4x1x1 (multiReduction (F := Ideal) .add [2] S4x1
            (exp (subf sc (broadcastTo S4x1x256 (shapeCast S4x1x1
              (multiReduction (F := Ideal) .maximumf [2] S4x1 sc 0xFF800000#32 hr hφ hmax) hc) hb)))
            0x00000000#32 hr hφ hsum) hc) hb)) hlt (ix3 b (0 : Fin 1) t)
      = softmax (fun u => sc (ix3 b (0 : Fin 1) u)) t := by
  have hmx : ∀ u : Fin 256, (broadcastTo S4x1x256 (shapeCast S4x1x1
        (multiReduction (F := Ideal) .maximumf [2] S4x1 sc 0xFF800000#32 hr hφ hmax) hc) hb) (ix3 b (0 : Fin 1) u)
      = rowMax (fun u => sc (ix3 b (0 : Fin 1) u)) := fun u =>
    (BlockLayout.overRow_apply _ hb b (0 : Fin 1) u).trans
      ((BlockLayout.addUnit_apply _ hc b (0 : Fin 1) (0 : Fin 1)).trans (BlockLayout.rowMax_apply sc hr hφ hmax b (0 : Fin 1)))
  have hex : ∀ u : Fin 256, (exp (subf sc (broadcastTo S4x1x256 (shapeCast S4x1x1
        (multiReduction (F := Ideal) .maximumf [2] S4x1 sc 0xFF800000#32 hr hφ hmax) hc) hb))) (ix3 b (0 : Fin 1) u)
      = expShift (fun u => sc (ix3 b (0 : Fin 1) u)) u := fun u =>
    congrArg (fun v : EReal => Ideal.exp (sc (ix3 b (0 : Fin 1) u) - v)) (hmx u)
  unfold softmax
  refine congrArg₂ (fun u v : EReal => Ideal.div u v) (hex t) ?_
  refine (BlockLayout.overRow_apply _ hb b (0 : Fin 1) t).trans
    ((BlockLayout.addUnit_apply _ hc b (0 : Fin 1) (0 : Fin 1)).trans ?_)
  refine (BlockLayout.rowSum_apply _ hr hφ hsum b (0 : Fin 1)).trans ?_
  exact Finset.sum_congr rfl fun u _ => hex u

/-- The stored payload at batch element `b`, column `d`: the softmax of the scores mixing the value rows — for any
    names `q`, `kx`, `kt`, `vt` of the query row, the caption keys, the target keys and the value rows of that
    batch element. -/
theorem pay1_apply (v5 : FVec Ideal S1024x1024 .bf16) (v18 v27 : FVec Ideal S4x256x1024 .bf16) (v34 : FVec Ideal S4x1024 .f32)
    (w : FVec Ideal S1024x1024 .bf16) (bias : FVec Ideal S1x1024 .f32) (b : Fin 4) (d : Fin 1024)
    (q : Row) (kx kt vt : Mat)
    (hq : ∀ k, v34 (ix2 b k) = q k) (hkx : ∀ c k, v18 (ix3 b c k) = kx c k) (hkt : ∀ c k, v27 (ix3 b c k) = kt c k)
    (hvt : ∀ t e, (∑ k : Fin 1024, v5 (ix2 (flatRow b t) k) * w (ix2 k e)) + bias (ix2 (0 : Fin 1) e) = vt t e) :
    k0_pay1 (F := Ideal) v5 v18 v27 v34 w bias (ix3 b (0 : Fin 1) d)
      = mix (softmax (score (attA q kx) (attB kx kt))) vt d := by
  have e1 : q = fun k => v34 (ix2 b k) := funext fun k => (hq k).symm
  have e2 : kx = fun c k => v18 (ix3 b c k) := funext fun c => funext fun k => (hkx c k).symm
  have e3 : kt = fun c k => v27 (ix3 b c k) := funext fun c => funext fun k => (hkt c k).symm
  have e4 : vt = fun t e => (∑ k : Fin 1024, v5 (ix2 (flatRow b t) k) * w (ix2 k e)) + bias (ix2 (0 : Fin 1) e) :=
    funext fun t => funext fun e => (hvt t e).symm
  subst e1 e2 e3 e4
  unfold k0_pay1
  refine (Dots.pv_apply _ _ b (0 : Fin 1) d).trans ?_
  unfold mix
  refine Finset.sum_congr rfl fun t _ => congrArg₂ (fun u v : EReal => u * v) ?_ ?_
  · refine (softmax_apply _ _ _ _ _ _ _ _ b t).trans ?_
    exact congrArg (fun s => softmax s t) (funext fun u => scores_apply v18 v27 v34 _ _ b u)
  · exact linear_rows v5 w bias _ _ _ _ _ b t d

/-- WHAT THE BODY STORES, read at batch element `b` of the block and column `d`: the row attention of that batch element's
    caption rows (window 0), target rows (window 1) and first reference row (window 2), through the query layer (windows
    3, 4), the caption-key layer (5, 6), the target-key layer (7, 8) and the value layer (9, 10), each weight transposed. -/
theorem out_apply (x0 x1 : Vec Ideal S4x256x1024 .f32) (x2 : Vec Ideal S4x1x1024 .f32) (x3 : Vec Ideal S1024x1024 .bf16)
    (x4 : Vec Ideal S1x1024 .f32) (x5 : Vec Ideal S1024x1024 .bf16) (x6 : Vec Ideal S1x1024 .f32)
    (x7 : Vec Ideal S1024x1024 .bf16) (x8 : Vec Ideal S1x1024 .f32) (x9 : Vec Ideal S1024x1024 .bf16)
    (x10 : Vec Ideal S1x1024 .f32) (b : Fin 4) (d : Fin 1024) :
    Gen.out0_11 (F := Ideal) x0 x1 x2 x3 x4 x5 x6 x7 x8 x9 x10 (ix3 b (0 : Fin 1) d)
      = rowAttn (fun l k => x0 (ix3 b l k)) (fun l k => x1 (ix3 b l k)) (fun k => x2 (ix3 b (0 : Fin 1) k))
          (fun e k => x3 (ix2 k e)) (fun e => x4 (ix2 (0 : Fin 1) e)) (fun e k => x5 (ix2 k e)) (fun e => x6 (ix2 (0 : Fin 1) e))
          (fun e k => x7 (ix2 k e)) (fun e => x8 (ix2 (0 : Fin 1) e)) (fun e k => x9 (ix2 k e)) (fun e => x10 (ix2 (0 : Fin 1) e)) d := by
  have hz3 : (![0, 0, 0] : Fin 3 → Nat) = fun _ => 0 := funext fun a => by fin_cases a <;> rfl
  have hz2 : (![0, 0] : Fin 2 → Nat) = fun _ => 0 := funext fun a => by fin_cases a <;> rfl
  unfold Gen.out0_11
  rw [View.canon_unit_zero hz3]
  simp only [View.ld_unit_zero (S := S4x256x1024) hz3, View.ld_unit_zero (S := S4x1x1024) hz3,
    View.ld_unit_zero (S := S1024x1024) hz2, View.ld_unit_zero (S := S1x1024) hz2]
  unfold rowAttn
  refine pay1_apply _ _ _ _ x9 x10 b d _ _ _ _ (pay5_apply x2 x3 x4 b) (pay3_apply x0 x5 x6 b) (pay4_apply x1 x7 x8 b) ?_
  intro t e
  unfold lin
  refine congrArg (fun v : EReal => v + x10 (ix2 (0 : Fin 1) e)) ?_
  exact Finset.sum_congr rfl fun k _ => congrArg (fun v : EReal => v * x9 (ix2 k e)) (pay2_apply x1 b t k)

end Cert.KernelIdeal.Block

end
-- ==== Proof.KernelArray.lean ====
/-
  From the blocks the kernel writes back to the result array. The one region runs 32 points; point t stages rows
  4t … 4t+3 of the caption and target arrays and of the first reference rows, the four weights transposed and the four
  biases as [1, 1024] rows, and writes back rows 4t … 4t+3 of a [128, 1, 1024] array. Given what the body leaves in the
  output window's buffer (`OutSpec`), every row of that array is the row attention of its batch element, and the host
  reshape after the region makes it the [128, 1024] result.
-/
import proofs.«100315_j51367808860581_2_alg».proof.Proof.Gen.KernelIdeal.Frame
import proofs.«100315_j51367808860581_2_alg».proof.Proof.Result
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Arr

open Cert.KernelIdeal Cert.KernelIdeal.Gen Idealize.ShloMosaic Idealize.ShloMosaic.TcCoe Idealize.ShloMosaic.ValueIdx Idealize.SL.Sem

/-- What the body leaves in the output window's buffer, read at batch element `b` of the block and column `d`. -/
def OutSpec : Prop :=
  ∀ (x0 x1 : Vec Ideal S4x256x1024 .f32) (x2 : Vec Ideal S4x1x1024 .f32) (x3 : Vec Ideal S1024x1024 .bf16) (x4 : Vec Ideal S1x1024 .f32)
    (x5 : Vec Ideal S1024x1024 .bf16) (x6 : Vec Ideal S1x1024 .f32) (x7 : Vec Ideal S1024x1024 .bf16) (x8 : Vec Ideal S1x1024 .f32)
    (x9 : Vec Ideal S1024x1024 .bf16) (x10 : Vec Ideal S1x1024 .f32) (b : Fin 4) (d : Fin 1024),
    Gen.out0_11 (F := Ideal) x0 x1 x2 x3 x4 x5 x6 x7 x8 x9 x10 (ix3 b (0 : Fin 1) d)
      = Cert.RowAttn.rowAttn (fun l k => x0 (ix3 b l k)) (fun l k => x1 (ix3 b l k)) (fun k => x2 (ix3 b (0 : Fin 1) k))
          (fun e k => x3 (ix2 k e)) (fun e => x4 (ix2 (0 : Fin 1) e)) (fun e k => x5 (ix2 k e)) (fun e => x6 (ix2 (0 : Fin 1) e))
          (fun e k => x7 (ix2 k e)) (fun e => x8 (ix2 (0 : Fin 1) e)) (fun e k => x9 (ix2 k e)) (fun e => x10 (ix2 (0 : Fin 1) e)) d

section Arrays

variable (m : (ℓ : Loc nD τ sig) → Buf (Elt Ideal) ℓ)

/-! ## The arrays the host prepares before the region, read at an index -/

/-- The query weight as the region finds it: transposed (the format change is the identity on extended reals). -/
theorem V_v1 (c : Dev nD) (k e : Fin 1024) :
    (V m c main_v1 : S1024x1024.Idx → EReal) (ix2 k e)
      = (m ((c.tc : Thread nD τ).loc main_arg3) : S1024x1024.Idx → EReal) (ix2 e k) := by
  have e1 : (V m c main_v1 : S1024x1024.Idx → EReal)
      = truncf (F := Ideal) .bf16 (transpose S1024x1024 [1, 0] (m ((c.tc : Thread nD τ).loc main_arg3) : FVec Ideal S1024x1024 .f32) transposes_S1024x1024_S1024x1024_1_0) bitsLt_bf16_f32 := by
    show StableHlo.after hostOps0 (fun b => m (c, b)) (Proc.devRef .tc main_v1) = _
    after_results
  rw [e1]
  exact transpose_ix2_apply _ _ k e

/-- The caption-key weight, transposed. -/
theorem V_v3 (c : Dev nD) (k e : Fin 1024) :
    (V m c main_v3 : S1024x1024.Idx → EReal) (ix2 k e)
      = (m ((c.tc : Thread nD τ).loc main_arg5) : S1024x1024.Idx → EReal) (ix2 e k) := by
  have e1 : (V m c main_v3 : S1024x1024.Idx → EReal)
      = truncf (F := Ideal) .bf16 (transpose S1024x1024 [1, 0] (m ((c.tc : Thread nD τ).loc main_arg5) : FVec Ideal S1024x1024 .f32) transposes_S1024x1024_S1024x1024_1_0) bitsLt_bf16_f32 := by
    show StableHlo.after hostOps0 (fun b => m (c, b)) (Proc.devRef .tc main_v3) = _
    after_results
  rw [e1]
  exact transpose_ix2_apply _ _ k e

/-- The target-key weight, transposed. -/
theorem V_v5 (c : Dev nD) (k e : Fin 1024) :
    (V m c main_v5 : S1024x1024.Idx → EReal) (ix2 k e)
      = (m ((c.tc : Thread nD τ).loc main_arg7) : S1024x1024.Idx → EReal) (ix2 e k) := by
  have e1 : (V m c main_v5 : S1024x1024.Idx → EReal)
      = truncf (F := Ideal) .bf16 (transpose S1024x1024 [1, 0] (m ((c.tc : Thread nD τ).loc main_arg7) : FVec Ideal S1024x1024 .f32) transposes_S1024x1024_S1024x1024_1_0) bitsLt_bf16_f32 := by
    show StableHlo.after hostOps0 (fun b => m (c, b)) (Proc.devRef .tc main_v5) = _
    after_results
  rw [e1]
  exact transpose_ix2_apply _ _ k e

/-- The value weight, transposed. -/
theorem V_v7 (c : Dev nD) (k e : Fin 1024) :
    (V m c main_v7 : S1024x1024.Idx → EReal) (ix2 k e)
      = (m ((c.tc : Thread nD τ).loc main_arg9) : S1024x1024.Idx → EReal) (ix2 e k) := by
  have e1 : (V m c main_v7 : S1024x1024.Idx → EReal)
      = truncf (F := Ideal) .bf16 (transpose S1024x1024 [1, 0] (m ((c.tc : Thread nD τ).loc main_arg9) : FVec Ideal S1024x1024 .f32) transposes_S1024x1024_S1024x1024_1_0) bitsLt_bf16_f32 := by
    show StableHlo.after hostOps0 (fun b => m (c, b)) (Proc.devRef .tc main_v7) = _
    after_results
  rw [e1]
  exact transpose_ix2_apply _ _ k e

/-- The query bias as a [1, 1024] row. -/
theorem V_v8 (c : Dev nD) (u : Fin 1) (e : Fin 1024) :
    (V m c main_v8 : S1x1024.Idx → EReal) (ix2 u e)
      = (m ((c.tc : Thread nD τ).loc main_arg4) : S1024.Idx → EReal) (ix1 e) := by
  have e1 : (V m c main_v8 : S1x1024.Idx → EReal)
      = shapeCast S1x1024 (m ((c.tc : Thread nD τ).loc main_arg4) : S1024.Idx → EReal) shapeCasts_S1024_S1x1024 := by
    show StableHlo.after hostOps0 (fun b => m (c, b)) (Proc.devRef .tc main_v8) = _
    after_results
    rfl
  rw [e1]
  exact shapeCast_a_1a_apply _ _ u e

/-- The caption-key bias as a row. -/
theorem V_v9 (c : Dev nD) (u : Fin 1) (e : Fin 1024) :
    (V m c main_v9 : S1x1024.Idx → EReal) (ix2 u e)
      = (m ((c.tc : Thread nD τ).loc main_arg6) : S1024.Idx → EReal) (ix1 e) := by
  have e1 : (V m c main_v9 : S1x1024.Idx → EReal)
      = shapeCast S1x1024 (m ((c.tc : Thread nD τ).loc main_arg6) : S1024.Idx → EReal) shapeCasts_S1024_S1x1024 := by
    show StableHlo.after hostOps0 (fun b => m (c, b)) (Proc.devRef .tc main_v9) = _
    after_results
    rfl
  rw [e1]
  exact shapeCast_a_1a_apply _ _ u e

/-- The target-key bias as a row. -/
theorem V_v10 (c : Dev nD) (u : Fin 1) (e : Fin 1024) :
    (V m c main_v10 : S1x1024.Idx → EReal) (ix2 u e)
      = (m ((c.tc : Thread nD τ).loc main_arg8) : S1024.Idx → EReal) (ix1 e) := by
  have e1 : (V m c main_v10 : S1x1024.Idx → EReal)
      = shapeCast S1x1024 (m ((c.tc : Thread nD τ).loc main_arg8) : S1024.Idx → EReal) shapeCasts_S1024_S1x1024 := by
    show StableHlo.after hostOps0 (fun b => m (c, b)) (Proc.devRef .tc main_v10) = _
    after_results
    rfl
  rw [e1]
  exact shapeCast_a_1a_apply _ _ u e

/-- The value bias as a row. -/
theorem V_v11 (c : Dev nD) (u : Fin 1) (e : Fin 1024) :
    (V m c main_v11 : S1x1024.Idx → EReal) (ix2 u e)
      = (m ((c.tc : Thread nD τ).loc main_arg10) : S1024.Idx → EReal) (ix1 e) := by
  have e1 : (V m c main_v11 : S1x1024.Idx → EReal)
      = shapeCast S1x1024 (m ((c.tc : Thread nD τ).loc main_arg10) : S1024.Idx → EReal) shapeCasts_S1024_S1x1024 := by
    show StableHlo.after hostOps0 (fun b => m (c, b)) (Proc.devRef .tc main_v11) = _
    after_results
    rfl
  rw [e1]
  exact shapeCast_a_1a_apply _ _ u e

/-- The first reference row of every batch element: rows 0:1 of the reference array. -/
theorem V_v12 (c : Dev nD) (b : Fin 128) (u : Fin 1) (k : Fin 1024) :
    (V m c main_v12 : S128x1x1024.Idx → EReal) (ix3 b u k)
      = (m ((c.tc : Thread nD τ).loc main_arg0) : S128x256x1024.Idx → EReal) (ix3 b (0 : Fin 256) k) := by
  have e1 : (V m c main_v12 : S128x1x1024.Idx → EReal)
      = extractStridedSlice S128x1x1024 ![0, 0, 0] (m ((c.tc : Thread nD τ).loc main_arg0) : S128x256x1024.Idx → EReal) slices_S128x256x1024_S128x1x1024_0_0_0 := by
    show StableHlo.after hostOps0 (fun b => m (c, b)) (Proc.devRef .tc main_v12) = _
    after_results
  rw [e1]
  exact slice3_axis1_apply 0 _ _ b u k (0 : Fin 256) (by have := u.isLt; show 0 = 0 + u.val; omega)

/-! ## The windows' block indices, decided over the grid -/

theorem idx_rows0 : ∀ t : Fin cfg0.N, (win0_0.index t (0 : Fin 3) = t.val ∧ win0_0.index t (1 : Fin 3) = 0 ∧ win0_0.index t (2 : Fin 3) = 0) :=
  (by decide +kernel : ∀ t : Fin grid0.N, _)
theorem idx_rows1 : ∀ t : Fin cfg0.N, (win0_1.index t (0 : Fin 3) = t.val ∧ win0_1.index t (1 : Fin 3) = 0 ∧ win0_1.index t (2 : Fin 3) = 0) :=
  (by decide +kernel : ∀ t : Fin grid0.N, _)
theorem idx_rows2 : ∀ t : Fin cfg0.N, (win0_2.index t (0 : Fin 3) = t.val ∧ win0_2.index t (1 : Fin 3) = 0 ∧ win0_2.index t (2 : Fin 3) = 0) :=
  (by decide +kernel : ∀ t : Fin grid0.N, _)
theorem idx_rows11 : ∀ t : Fin cfg0.N, (win0_11.index t (0 : Fin 3) = t.val ∧ win0_11.index t (1 : Fin 3) = 0 ∧ win0_11.index t (2 : Fin 3) = 0) :=
  (by decide +kernel : ∀ t : Fin grid0.N, _)
theorem idx_whole3 : ∀ t : Fin cfg0.N, (win0_3.index t (0 : Fin 2) = 0 ∧ win0_3.index t (1 : Fin 2) = 0) :=
  (by decide +kernel : ∀ t : Fin grid0.N, _)
theorem idx_whole4 : ∀ t : Fin cfg0.N, (win0_4.index t (0 : Fin 2) = 0 ∧ win0_4.index t (1 : Fin 2) = 0) :=
  (by decide +kernel : ∀ t : Fin grid0.N, _)
theorem idx_whole5 : ∀ t : Fin cfg0.N, (win0_5.index t (0 : Fin 2) = 0 ∧ win0_5.index t (1 : Fin 2) = 0) :=
  (by decide +kernel : ∀ t : Fin grid0.N, _)
theorem idx_whole6 : ∀ t : Fin cfg0.N, (win0_6.index t (0 : Fin 2) = 0 ∧ win0_6.index t (1 : Fin 2) = 0) :=
  (by decide +kernel : ∀ t : Fin grid0.N, _)
theorem idx_whole7 : ∀ t : Fin cfg0.N, (win0_7.index t (0 : Fin 2) = 0 ∧ win0_7.index t (1 : Fin 2) = 0) :=
  (by decide +kernel : ∀ t : Fin grid0.N, _)
theorem idx_whole8 : ∀ t : Fin cfg0.N, (win0_8.index t (0 : Fin 2) = 0 ∧ win0_8.index t (1 : Fin 2) = 0) :=
  (by decide +kernel : ∀ t : Fin grid0.N, _)
theorem idx_whole9 : ∀ t : Fin cfg0.N, (win0_9.index t (0 : Fin 2) = 0 ∧ win0_9.index t (1 : Fin 2) = 0) :=
  (by decide +kernel : ∀ t : Fin grid0.N, _)
theorem idx_whole10 : ∀ t : Fin cfg0.N, (win0_10.index t (0 : Fin 2) = 0 ∧ win0_10.index t (1 : Fin 2) = 0) :=
  (by decide +kernel : ∀ t : Fin grid0.N, _)

/-- Row bb of block t is batch element 4t + bb. -/
def brow (t : Fin cfg0.N) (bb : Fin 4) : Fin 128 :=
  ⟨4 * t.val + bb.val, by have h : t.val < 32 := lt_of_lt_of_eq t.isLt N_0; have := bb.isLt; omega⟩

/-! ## Each window's block at a point, read at an index, is the argument array at the index it stands for -/

/-- The caption block: rows 4t … 4t+3 of the caption array. -/
theorem iblk0 (c : Dev nD) (t : Fin cfg0.N) (bb : Fin 4) (l : Fin 256) (k : Fin 1024) :
    (iblk m c 0 t : Vec Ideal S4x256x1024 .f32) (ix3 bb l k)
      = (m ((c.tc : Thread nD τ).loc main_arg1) : S128x256x1024.Idx → EReal) (ix3 (brow t bb) l k) := by
  obtain ⟨e0, e1, e2⟩ := idx_rows0 t
  unfold iblk
  rw [View.read_apply]
  show V m c main_arg1 _ = _
  rw [V_main_arg1]
  refine congrArg _ (funext fun a => Fin.ext ?_)
  match a with
  | ⟨0, _⟩ => show win0_0.index t 0 * 4 + 1 * bb.val = 4 * t.val + bb.val; rw [e0]; omega
  | ⟨1, _⟩ => show win0_0.index t 1 * 256 + 1 * l.val = l.val; rw [e1]; omega
  | ⟨2, _⟩ => show win0_0.index t 2 * 1024 + 1 * k.val = k.val; rw [e2]; omega

/-- The target block: rows 4t … 4t+3 of the target array. -/
theorem iblk1 (c : Dev nD) (t : Fin cfg0.N) (bb : Fin 4) (l : Fin 256) (k : Fin 1024) :
    (iblk m c 1 t : Vec Ideal S4x256x1024 .f32) (ix3 bb l k)
      = (m ((c.tc : Thread nD τ).loc main_arg2) : S128x256x1024.Idx → EReal) (ix3 (brow t bb) l k) := by
  obtain ⟨e0, e1, e2⟩ := idx_rows1 t
  unfold iblk
  rw [View.read_apply]
  show V m c main_arg2 _ = _
  rw [V_main_arg2]
  refine congrArg _ (funext fun a => Fin.ext ?_)
  match a with
  | ⟨0, _⟩ => show win0_1.index t 0 * 4 + 1 * bb.val = 4 * t.val + bb.val; rw [e0]; omega
  | ⟨1, _⟩ => show win0_1.index t 1 * 256 + 1 * l.val = l.val; rw [e1]; omega
  | ⟨2, _⟩ => show win0_1.index t 2 * 1024 + 1 * k.val = k.val; rw [e2]; omega

/-- The block of first reference rows: row 0 of batch elements 4t … 4t+3 of the reference array. -/
theorem iblk2 (c : Dev nD) (t : Fin cfg0.N) (bb : Fin 4) (u : Fin 1) (k : Fin 1024) :
    (iblk m c 2 t : Vec Ideal S4x1x1024 .f32) (ix3 bb u k)
      = (m ((c.tc : Thread nD τ).loc main_arg0) : S128x256x1024.Idx → EReal) (ix3 (brow t bb) (0 : Fin 256) k) := by
  obtain ⟨e0, e1, e2⟩ := idx_rows2 t
  have hu := u.isLt
  unfold iblk
  rw [View.read_apply]
  show (V m c main_v12 : S128x1x1024.Idx → EReal) _ = _
  refine Eq.trans (congrArg _ (?_ : _ = ix3 (brow t bb) u k)) (V_v12 m c (brow t bb) u k)
  funext a
  apply Fin.ext
  match a with
  | ⟨0, _⟩ => show win0_2.index t 0 * 4 + 1 * bb.val = 4 * t.val + bb.val; rw [e0]; omega
  | ⟨1, _⟩ => show win0_2.index t 1 * 1 + 1 * u.val = u.val; rw [e1]; omega
  | ⟨2, _⟩ => show win0_2.index t 2 * 1024 + 1 * k.val = k.val; rw [e2]; omega

/-- The query weight's block is the whole transposed weight. -/
theorem iblk3 (c : Dev nD) (t : Fin cfg0.N) (k e : Fin 1024) :
    (iblk m c 3 t : Vec Ideal S1024x1024 .bf16) (ix2 k e)
      = (m ((c.tc : Thread nD τ).loc main_arg3) : S1024x1024.Idx → EReal) (ix2 e k) := by
  obtain ⟨e0, e1⟩ := idx_whole3 t
  unfold iblk
  rw [View.read_apply]
  show (V m c main_v1 : S1024x1024.Idx → EReal) _ = _
  refine Eq.trans (congrArg _ (?_ : _ = ix2 k e)) (V_v1 m c k e)
  funext a
  apply Fin.ext
  match a with
  | ⟨0, _⟩ => show win0_3.index t 0 * 1024 + 1 * k.val = k.val; rw [e0]; omega
  | ⟨1, _⟩ => show win0_3.index t 1 * 1024 + 1 * e.val = e.val; rw [e1]; omega

/-- The query bias's block is the whole bias row. -/
theorem iblk4 (c : Dev nD) (t : Fin cfg0.N) (u : Fin 1) (e : Fin 1024) :
    (iblk m c 4 t : Vec Ideal S1x1024 .f32) (ix2 u e)
      = (m ((c.tc : Thread nD τ).loc main_arg4) : S1024.Idx → EReal) (ix1 e) := by
  obtain ⟨e0, e1⟩ := idx_whole4 t
  have hu := u.isLt
  unfold iblk
  rw [View.read_apply]
  show (V m c main_v8 : S1x1024.Idx → EReal) _ = _
  refine Eq.trans (congrArg _ (?_ : _ = ix2 u e)) (V_v8 m c u e)
  funext a
  apply Fin.ext
  match a with
  | ⟨0, _⟩ => show win0_4.index t 0 * 1 + 1 * u.val = u.val; rw [e0]; omega
  | ⟨1, _⟩ => show win0_4.index t 1 * 1024 + 1 * e.val = e.val; rw [e1]; omega

/-- The caption-key weight's block. -/
theorem iblk5 (c : Dev nD) (t : Fin cfg0.N) (k e : Fin 1024) :
    (iblk m c 5 t : Vec Ideal S1024x1024 .bf16) (ix2 k e)
      = (m ((c.tc : Thread nD τ).loc main_arg5) : S1024x1024.Idx → EReal) (ix2 e k) := by
  obtain ⟨e0, e1⟩ := idx_whole5 t
  unfold iblk
  rw [View.read_apply]
  show (V m c main_v3 : S1024x1024.Idx → EReal) _ = _
  refine Eq.trans (congrArg _ (?_ : _ = ix2 k e)) (V_v3 m c k e)
  funext a
  apply Fin.ext
  match a with
  | ⟨0, _⟩ => show win0_5.index t 0 * 1024 + 1 * k.val = k.val; rw [e0]; omega
  | ⟨1, _⟩ => show win0_5.index t 1 * 1024 + 1 * e.val = e.val; rw [e1]; omega

/-- The caption-key bias's block. -/
theorem iblk6 (c : Dev nD) (t : Fin cfg0.N) (u : Fin 1) (e : Fin 1024) :
    (iblk m c 6 t : Vec Ideal S1x1024 .f32) (ix2 u e)
      = (m ((c.tc : Thread nD τ).loc main_arg6) : S1024.Idx → EReal) (ix1 e) := by
  obtain ⟨e0, e1⟩ := idx_whole6 t
  have hu := u.isLt
  unfold iblk
  rw [View.read_apply]
  show (V m c main_v9 : S1x1024.Idx → EReal) _ = _
  refine Eq.trans (congrArg _ (?_ : _ = ix2 u e)) (V_v9 m c u e)
  funext a
  apply Fin.ext
  match a with
  | ⟨0, _⟩ => show win0_6.index t 0 * 1 + 1 * u.val = u.val; rw [e0]; omega
  | ⟨1, _⟩ => show win0_6.index t 1 * 1024 + 1 * e.val = e.val; rw [e1]; omega

/-- The target-key weight's block. -/
theorem iblk7 (c : Dev nD) (t : Fin cfg0.N) (k e : Fin 1024) :
    (iblk m c 7 t : Vec Ideal S1024x1024 .bf16) (ix2 k e)
      = (m ((c.tc : Thread nD τ).loc main_arg7) : S1024x1024.Idx → EReal) (ix2 e k) := by
  obtain ⟨e0, e1⟩ := idx_whole7 t
  unfold iblk
  rw [View.read_apply]
  show (V m c main_v5 : S1024x1024.Idx → EReal) _ = _
  refine Eq.trans (congrArg _ (?_ : _ = ix2 k e)) (V_v5 m c k e)
  funext a
  apply Fin.ext
  match a with
  | ⟨0, _⟩ => show win0_7.index t 0 * 1024 + 1 * k.val = k.val; rw [e0]; omega
  | ⟨1, _⟩ => show win0_7.index t 1 * 1024 + 1 * e.val = e.val; rw [e1]; omega

/-- The target-key bias's block. -/
theorem iblk8 (c : Dev nD) (t : Fin cfg0.N) (u : Fin 1) (e : Fin 1024) :
    (iblk m c 8 t : Vec Ideal S1x1024 .f32) (ix2 u e)
      = (m ((c.tc : Thread nD τ).loc main_arg8) : S1024.Idx → EReal) (ix1 e) := by
  obtain ⟨e0, e1⟩ := idx_whole8 t
  have hu := u.isLt
  unfold iblk
  rw [View.read_apply]
  show (V m c main_v10 : S1x1024.Idx → EReal) _ = _
  refine Eq.trans (congrArg _ (?_ : _ = ix2 u e)) (V_v10 m c u e)
  funext a
  apply Fin.ext
  match a with
  | ⟨0, _⟩ => show win0_8.index t 0 * 1 + 1 * u.val = u.val; rw [e0]; omega
  | ⟨1, _⟩ => show win0_8.index t 1 * 1024 + 1 * e.val = e.val; rw [e1]; omega

/-- The value weight's block. -/
theorem iblk9 (c : Dev nD) (t : Fin cfg0.N) (k e : Fin 1024) :
    (iblk m c 9 t : Vec Ideal S1024x1024 .bf16) (ix2 k e)
      = (m ((c.tc : Thread nD τ).loc main_arg9) : S1024x1024.Idx → EReal) (ix2 e k) := by
  obtain ⟨e0, e1⟩ := idx_whole9 t
  unfold iblk
  rw [View.read_apply]
  show (V m c main_v7 : S1024x1024.Idx → EReal) _ = _
  refine Eq.trans (congrArg _ (?_ : _ = ix2 k e)) (V_v7 m c k e)
  funext a
  apply Fin.ext
  match a with
  | ⟨0, _⟩ => show win0_9.index t 0 * 1024 + 1 * k.val = k.val; rw [e0]; omega
  | ⟨1, _⟩ => show win0_9.index t 1 * 1024 + 1 * e.val = e.val; rw [e1]; omega

/-- The value bias's block. -/
theorem iblk10 (c : Dev nD) (t : Fin cfg0.N) (u : Fin 1) (e : Fin 1024) :
    (iblk m c 10 t : Vec Ideal S1x1024 .f32) (ix2 u e)
      = (m ((c.tc : Thread nD τ).loc main_arg10) : S1024.Idx → EReal) (ix1 e) := by
  obtain ⟨e0, e1⟩ := idx_whole10 t
  have hu := u.isLt
  unfold iblk
  rw [View.read_apply]
  show (V m c main_v11 : S1x1024.Idx → EReal) _ = _
  refine Eq.trans (congrArg _ (?_ : _ = ix2 u e)) (V_v11 m c u e)
  funext a
  apply Fin.ext
  match a with
  | ⟨0, _⟩ => show win0_10.index t 0 * 1 + 1 * u.val = u.val; rw [e0]; omega
  | ⟨1, _⟩ => show win0_10.index t 1 * 1024 + 1 * e.val = e.val; rw [e1]; omega

/-! ## The array the output window's blocks fill -/

/-- Entry (b, 0, d) is column d of the row attention of batch element b. -/
def G13 (c : Dev nD) : S128x1x1024.Idx → EReal := fun i =>
  Cert.RowAttn.batchRow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
    ⟨(i 0).val, (i 0).isLt⟩ ⟨(i 2).val, (i 2).isLt⟩

theorem G13_ix3 (c : Dev nD) (b : Fin 128) (u : Fin 1) (d : Fin 1024) :
    G13 m c (ix3 b u d) = Cert.RowAttn.batchRow (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) b d := rfl

/-- Index (bb, u, d) of the output's block at point t stands for index (4t + bb, u, d) of the array. -/
theorem emb11 (t : Fin cfg0.N) (bb : Fin 4) (u : Fin 1) (d : Fin 1024) :
    ((cfg0.win 11).blk t).view.emb (ix3 bb u d) = (ix3 (brow t bb) u d : S128x1x1024.Idx) := by
  obtain ⟨e0, e1, e2⟩ := idx_rows11 t
  have hu := u.isLt
  funext a
  apply Fin.ext
  match a with
  | ⟨0, _⟩ => show win0_11.index t 0 * 4 + 1 * bb.val = 4 * t.val + bb.val; rw [e0]; omega
  | ⟨1, _⟩ => show win0_11.index t 1 * 1 + 1 * u.val = u.val; rw [e1]; omega
  | ⟨2, _⟩ => show win0_11.index t 2 * 1024 + 1 * d.val = d.val; rw [e2]; omega

/-- WHAT POINT t WRITES BACK is block t of that array. -/
theorem flushed_eq (hout : OutSpec) (c : Dev nD) (t : Fin cfg0.N) :
    (dats m 0 c).flushed 11 t = ((cfg0.win 11).blk t).view.read (Elt Ideal) (G13 m c) := by
  show (cfg0.win 11).cut (grid0.coords t) ((dats m 0 c).after 11 t) = _
  rw [after0_11]
  refine funext fun (y : S4x1x1024.Idx) => ?_
  obtain ⟨bb, u, d, rfl⟩ : ∃ (bb : Fin 4) (u : Fin 1) (d : Fin 1024), y = ix3 bb u d := ⟨y 0, y 1, y 2, eq_ix3 y⟩
  obtain rfl : u = 0 := Subsingleton.elim _ _
  show Gen.out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix3 bb (0 : Fin 1) d)
      = G13 m c (((cfg0.win 11).blk t).view.emb (ix3 bb (0 : Fin 1) d))
  rw [emb11, G13_ix3]
  refine (hout _ _ _ _ _ _ _ _ _ _ _ bb d).trans ?_
  unfold Cert.RowAttn.batchRow
  simp only [iblk0, iblk1, iblk2, iblk3, iblk4, iblk5, iblk6, iblk7, iblk8, iblk9, iblk10]

/-- An index of the array is in point t's block iff each coordinate is in the block's range on its axis. -/
theorem mem_blk (t : Fin cfg0.N) (i : S128x1x1024.Idx) :
    i ∈ ((cfg0.win 11).blk t).view.set ↔ ∀ a : Fin 3, win0_11.index t a * S4x1x1024.size a ≤ (i a).val
      ∧ (i a).val < win0_11.index t a * S4x1x1024.size a + S4x1x1024.size a := by
  show i ∈ ((View.whole main_v13).slice (win0_11.rect t)).set ↔ _
  rw [View.set_slice_whole, Rect.mem_set_unit]
  exact Iff.rfl

/-- Every index of the array is in some point's block: batch element b is in block b / 4. -/
theorem cover (i : S128x1x1024.Idx) :
    ∃ t : Fin cfg0.N, (cfg0.win 11).flush t = true ∧ i ∈ ((cfg0.win 11).blk t).view.set := by
  have h0 : (i 0).val < 128 := (i 0).isLt
  have h1 : (i 1).val < 1 := (i 1).isLt
  have h2 : (i 2).val < 1024 := (i 2).isLt
  have hN : cfg0.N = 32 := N_0
  obtain ⟨t, et⟩ : ∃ t : Fin cfg0.N, t.val = (i 0).val / 4 := ⟨⟨(i 0).val / 4, by rw [hN]; omega⟩, rfl⟩
  obtain ⟨e0, e1, e2⟩ := idx_rows11 t
  refine ⟨t, flush0_11 t, ?_⟩
  rw [mem_blk]
  intro a
  match a with
  | ⟨0, _⟩ => show win0_11.index t 0 * 4 ≤ (i 0).val ∧ (i 0).val < win0_11.index t 0 * 4 + 4; rw [e0, et]; omega
  | ⟨1, _⟩ => show win0_11.index t 1 * 1 ≤ (i 1).val ∧ (i 1).val < win0_11.index t 1 * 1 + 1; rw [e1]; omega
  | ⟨2, _⟩ => show win0_11.index t 2 * 1024 ≤ (i 2).val ∧ (i 2).val < win0_11.index t 2 * 1024 + 1024; rw [e2]; omega

/-- THE ARRAY after the region: every row is the row attention of its batch element. -/
theorem final (hout : OutSpec) (c : Dev nD) : (dats m 0 c).arrAt 11 cfg0.N = G13 m c :=
  (dats m 0 c).arrAt_eq_of_cover 11 (G13 m c) (fun t _ => flushed_eq m hout c t) cover

/-! ## The host reshape after the region, and the run -/

/-- A [128, 1, 1024] array reshaped to [128, 1024] reads, at (b, d), the operand at (b, 0, d). -/
theorem reshape_drop_mid {α : Type} (x : S128x1x1024.Idx → α) (h : S128x1x1024.ShapeCasts S128x1024)
    (b : Fin 128) (d : Fin 1024) : shapeCast S128x1024 x h (ix2 b d) = x (ix3 b (0 : Fin 1) d) :=
  shapeCast_apply x h _ _ (by
    rw [Shape.rowMajor_val_three, Shape.rowMajor_val_two]
    show (b.val * 1 + 0) * 1024 + d.val = b.val * 1024 + d.val
    omega)

/-- The result buffer after the host's last operation is the result array. -/
theorem tail_v14 (hout : OutSpec) (c : Dev nD) :
    Pipeline.afterTail₀ cfgs (dats m) 0 (V0 m) [hostOps1] c main_v14
      = Cert.RowAttn.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  have hw : Pipeline.withArrays (cfgs 0).spec c (V0 m c) (fun w => (dats m 0 c).arrAt w (cfgs 0).N) (Proc.devRef .tc main_v13)
      = G13 m c :=
    (Pipeline.withArrays_arr spec0 launch0.win.arr_inj c _ _ 11).trans (final m hout c)
  unfold Pipeline.afterTail₀
  show StableHlo.after hostOps1 _ (Proc.devRef .tc main_v14) = _
  after_results
  refine funext fun (i : S128x1024.Idx) => ?_
  obtain ⟨b, d, rfl⟩ : ∃ (b : Fin 128) (d : Fin 1024), i = ix2 b d := ⟨i 0, i 1, eq_ix2 i⟩
  show shapeCast S128x1024 (Pipeline.withArrays (cfgs 0).spec c (V0 m c) (fun w => (dats m 0 c).arrAt w (cfgs 0).N) (Proc.devRef .tc main_v13))
        shapeCasts_S128x1x1024_S128x1024 (ix2 b d) = _
  rw [hw, Cert.RowAttn.result_ix2, reshape_drop_mid, G13_ix3]

end Arrays

theorem kernel_run (hout : OutSpec) (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v14)
        = Cert.RowAttn.result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8))
            (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨((h c).2 main_v14 (Pipeline.mem_restRefs_of main_v14 (by decide) (by decide))).trans (tail_v14 m hout c),
      (((h c).2 main_arg0 (Pipeline.mem_restRefs_of main_arg0 (by decide) (by decide))).trans (W_main_arg0 m (dats m) c)),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c))⟩)
    (run_main (F := Ideal) m ρ)

end Cert.KernelIdeal.Arr

end
-- ==== Proof.lean ====
/-
  The certificate of the fused three-way attention kernel against its reference, at the extended reals.

  Per batch element both programs compute ONE row: with K, T, V the caption-key, target-key and value layers applied to
  the 256 caption and target rows and q the query layer applied to the FIRST reference row,
      out = softmax ( (q · Kᵀ · s) · (K · Tᵀ · s) ) · V,        s the float word of 1/32.
  The reference computes all 256 rows of the attention and returns row 0; a row of a softmax over the last axis, and of
  each matrix product, depends on that row of its left operand alone, so row 0 of the reference is the row the kernel
  computes from the first reference row only. The kernel works on blocks of 4 batch elements with the 4 × 256 rows
  flattened for the linear layers, takes each weight transposed (the host transposes it first) and rounds to bf16 between
  its stages; at the extended reals a change of format is the identity and a matrix product into a zero accumulator is
  the plain sum, so both sides are the SAME tree of sums, products, one exponential and one quotient — no algebraic law
  is needed, and none that would need the inputs finite: the precondition is never opened.

  The pieces: `Cert.RowAttn.rowAttn` (RowAttention.lean) is that row as a function of one batch element's rows;
  `Cert.RowAttn.result` (Result.lean) the [128, 1024] array of all batch elements' rows; `Cert.RefRow.reference_row`
  (ReferenceRow.lean) reads the reference's result at (b, d) as that row; `Cert.KernelIdeal.Block.out_apply`
  (KernelBlock.lean, over KernelDots.lean and BlockLayout.lean) reads what the kernel body stores at a block index as that
  row of the block's rows; `Cert.KernelIdeal.Arr.kernel_run` (KernelArray.lean) carries it from the blocks to the whole
  array through the host operations around the call. The three frames are the generated ones; nothing was idealized
  away, so `preserves` is `True`.
-/
import proofs.«100315_j51367808860581_2_alg».proof.Defs
import proofs.«100315_j51367808860581_2_alg».proof.Proof.Gen.Kernel
import proofs.«100315_j51367808860581_2_alg».proof.Proof.Gen.Kernel.Skeleton
import proofs.«100315_j51367808860581_2_alg».proof.Proof.Gen.Kernel.Launch
import proofs.«100315_j51367808860581_2_alg».proof.Proof.Gen.Kernel.Points
import proofs.«100315_j51367808860581_2_alg».proof.Proof.Gen.Kernel.Frame
import proofs.«100315_j51367808860581_2_alg».proof.Proof.Gen.KernelIdeal
import proofs.«100315_j51367808860581_2_alg».proof.Proof.Gen.KernelIdeal.Skeleton
import proofs.«100315_j51367808860581_2_alg».proof.Proof.Gen.KernelIdeal.Launch
import proofs.«100315_j51367808860581_2_alg».proof.Proof.Gen.KernelIdeal.Points
import proofs.«100315_j51367808860581_2_alg».proof.Proof.Gen.KernelIdeal.Frame
import proofs.«100315_j51367808860581_2_alg».proof.Proof.Gen.ReferenceIdeal
import proofs.«100315_j51367808860581_2_alg».proof.Proof.Gen.ReferenceIdeal.Run
import proofs.«100315_j51367808860581_2_alg».proof.Proof.Gen.ReferenceIdeal.Read
import proofs.«100315_j51367808860581_2_alg».proof.Proof.Gen.Pre_finite_inputs
import proofs.«100315_j51367808860581_2_alg».proof.Proof.Result
import proofs.«100315_j51367808860581_2_alg».proof.Proof.ReferenceRow
import proofs.«100315_j51367808860581_2_alg».proof.Proof.KernelBlock
import proofs.«100315_j51367808860581_2_alg».proof.Proof.KernelArray
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel terminates, faults nowhere and leaves its arguments as they were: the generated frame. -/
theorem frame_kernel : Cert.frame_Kernel := fun m ρ _ => Cert.Kernel.Gen.frame m ρ

/-- The same of the kernel read at the extended reals. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- The reference's result array is the array of every batch element's row. -/
theorem reference_result
    (x0 x1 x2 : (⟨Cert.ReferenceIdeal.S128x256x1024, .f32⟩ : BufTy).Contents (Elt Ideal))
    (x3 : (⟨Cert.ReferenceIdeal.S1024x1024, .f32⟩ : BufTy).Contents (Elt Ideal)) (x4 : (⟨Cert.ReferenceIdeal.S1024, .f32⟩ : BufTy).Contents (Elt Ideal))
    (x5 : (⟨Cert.ReferenceIdeal.S1024x1024, .f32⟩ : BufTy).Contents (Elt Ideal)) (x6 : (⟨Cert.ReferenceIdeal.S1024, .f32⟩ : BufTy).Contents (Elt Ideal))
    (x7 : (⟨Cert.ReferenceIdeal.S1024x1024, .f32⟩ : BufTy).Contents (Elt Ideal)) (x8 : (⟨Cert.ReferenceIdeal.S1024, .f32⟩ : BufTy).Contents (Elt Ideal))
    (x9 : (⟨Cert.ReferenceIdeal.S1024x1024, .f32⟩ : BufTy).Contents (Elt Ideal)) (x10 : (⟨Cert.ReferenceIdeal.S1024, .f32⟩ : BufTy).Contents (Elt Ideal)) :
    Cert.ReferenceIdeal.Read.val_main_v36 (F := Ideal) x0 x1 x2 x3 x4 x5 x6 x7 x8 x9 x10
      = Cert.RowAttn.result x0 x1 x2 x3 x4 x5 x6 x7 x8 x9 x10 := by
  funext i
  obtain ⟨b, d, rfl⟩ : ∃ (b : Fin 128) (d : Fin 1024), i = ix2 b d := ⟨i 0, i 1, eq_ix2 i⟩
  exact (Cert.RefRow.reference_row x0 x1 x2 x3 x4 x5 x6 x7 x8 x9 x10 b d).trans
    (Cert.RowAttn.result_ix2 x0 x1 x2 x3 x4 x5 x6 x7 x8 x9 x10 b d).symm

/-- From memories that agree on the arguments both programs end with the array of every batch element's row: the
    kernel's by its run read from the blocks to the whole array, the reference's by its run read operation by operation. -/
theorem algebraic : Cert.algebraic_KernelIdeal_ReferenceIdeal := by
  intro m ρ m' ρ' _ hagree
  refine ⟨_, Cert.KernelIdeal.Arr.kernel_run Cert.KernelIdeal.Block.out_apply m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v36_eq, reference_result, h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
